-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S4096x2048 .f32) (main_arg2 : FVec F S4096x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048x4096 : Shape := ⟨2, ![2048, 4096]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S2048x256 : Shape := ⟨2, ![2048, 256]⟩
abbrev S1x256 : Shape := ⟨2, ![1, 256]⟩
abbrev S512x256 : Shape := ⟨2, ![512, 256]⟩

abbrev nBuf : Space → Nat
  | .hbm => 35
  | .vmem => 34
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x2048, .bf16⟩
  | .hbm, ⟨12, _⟩ => ⟨S4096x2048, .bf16⟩
  | .hbm, ⟨13, _⟩ => ⟨S2048x4096, .bf16⟩
  | .hbm, ⟨14, _⟩ => ⟨S4096x2048, .bf16⟩
  | .hbm, ⟨15, _⟩ => ⟨S2048x2048, .bf16⟩
  | .hbm, ⟨16, _⟩ => ⟨S2048x2048, .bf16⟩
  | .hbm, ⟨17, _⟩ => ⟨S2048x4096, .bf16⟩
  | .hbm, ⟨18, _⟩ => ⟨S4096x2048, .bf16⟩
  | .hbm, ⟨19, _⟩ => ⟨S2048x2048, .bf16⟩
  | .hbm, ⟨20, _⟩ => ⟨S2048x2048, .bf16⟩
  | .hbm, ⟨21, _⟩ => ⟨S2048x4096, .bf16⟩
  | .hbm, ⟨22, _⟩ => ⟨S4096x2048, .bf16⟩
  | .hbm, ⟨23, _⟩ => ⟨S2048x2048, .bf16⟩
  | .hbm, ⟨24, _⟩ => ⟨S2048x2048, .bf16⟩
  | .hbm, ⟨25, _⟩ => ⟨S2048x4096, .bf16⟩
  | .hbm, ⟨26, _⟩ => ⟨S4096x2048, .bf16⟩
  | .hbm, ⟨27, _⟩ => ⟨S2048x2048, .bf16⟩
  | .hbm, ⟨28, _⟩ => ⟨S2048x2048, .bf16⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S4096x2048, .f32⟩
  | .hbm, ⟨34, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S512x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  bitsLt_bf16_f32 : FTy.bits .bf16 < FTy.bits .f32
  transposes_S2048x4096_S4096x2048_1_0 : S2048x4096.Transposes [1, 0] S4096x2048
  slices_S4096x2048_S2048x2048_0_0 : S4096x2048.Slices ![0, 0] S2048x2048
  slices_S4096x2048_S2048x2048_2048_0 : S4096x2048.Slices ![2048, 0] S2048x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x2048.size a
  hwx0_2 : ∀ i : grid0.Coords, EltTy.bits .bf16 = 32 ∨ (Rect.block (s := S2048x2048) S2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .bf16 = 32 ∨ (Rect.block (s := S2048x2048) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x2048.size a
  hwx0_4 : ∀ i : grid0.Coords, EltTy.bits .bf16 = 32 ∨ (Rect.block (s := S2048x2048) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x2048.size a
  hwx0_5 : ∀ i : grid0.Coords, EltTy.bits .bf16 = 32 ∨ (Rect.block (s := S2048x2048) S2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .bf16 = 32 ∨ (Rect.block (s := S2048x2048) S2048x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .bf16 = 32 ∨ (Rect.block (s := S2048x2048) S2048x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S2048x2048.size a
  hwx0_8 : ∀ i : grid0.Coords, EltTy.bits .bf16 = 32 ∨ (Rect.block (s := S2048x2048) S2048x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S2048x2048.size a
  hwx0_9 : ∀ i : grid0.Coords, EltTy.bits .bf16 = 32 ∨ (Rect.block (s := S2048x2048) S2048x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x2048.size a
  hwx0_10 : ∀ i : grid0.Coords, EltTy.bits .f32 = 32 ∨ (Rect.block (s := S1x2048) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x256.size a ≤ S4096x2048.size a
  hwx0_14 : ∀ i : grid0.Coords, EltTy.bits .f32 = 32 ∨ (Rect.block (s := S4096x2048) S512x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S4096x2048.size a
  hwx0_15 : ∀ i : grid0.Coords, EltTy.bits .f32 = 32 ∨ (Rect.block (s := S4096x2048) S512x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S4096x2048.size a
  hwx0_16 : ∀ i : grid0.Coords, EltTy.bits .f32 = 32 ∨ (Rect.block (s := S4096x2048) S512x256.size (cc0_transform_16 i) (hinb0_16 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16) S2048x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v17) S2048x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v19) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v20) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v21) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg2) S512x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v22_0) S512x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v22_1) S512x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S8192x4096 : Shape := ⟨2, ![8192, 4096]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  bcast_S_S4096x2048 : S_.BroadcastsInDim S4096x2048 (![] : Fin 0 → Fin S4096x2048.rank)
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.Spec.lean ====
/-
  The LSTM cell as one function of its eleven argument arrays, entry by entry.

  For a batch row `p` and a hidden column `q` a gate's pre-activation is
      g(p, q) = (∑ₖ hidden[p, k] · W[q, k]) + (∑ₖ x[p, k] · W[q, 2048 + k]) + b[q],
  the contraction over the 4096 columns of `W` taken in its two halves: the first 2048 columns meet the
  hidden state, the last 2048 meet the input.  With the four gates f, i, o, g,
      c'[p, q] = σ(g_f) · c[p, q] + σ(g_i) · tanh(g_g),      h'[p, q] = σ(g_o) · tanh(c'[p, q]).
  Everything is read on the extended reals; σ is the logistic function 1 / (1 + e⁻ᵗ), which is the same
  function whether it is taken in one step or spelled as negate, exponential, add one and divide.
-/
import Idealize.ShloMosaic.PureOps.Ideal
import Idealize.ShloMosaic.PureOps.Ideal.Laws
import Idealize.ShloMosaic.Lib.ValueIdx

noncomputable section

namespace Cert.Lstm

open Idealize.ShloMosaic Idealize.ShloMosaic.ValueIdx

/-- A two-axis array of extended reals. -/
abbrev Arr (a b : ℕ) : Type := (⟨2, ![a, b]⟩ : Shape).Idx → EReal

/-- One gate's pre-activation from the row of the hidden state, the row of the input, the two matching
    columns of weights and the bias entry: two contractions of length 2048, added, plus the bias. -/
def gate (h x wh wx : Fin 2048 → EReal) (b : EReal) : EReal :=
  ((∑ k : Fin 2048, h k * wh k) + ∑ k : Fin 2048, x k * wx k) + b

/-- The new cell state at one entry from the forget, input and candidate pre-activations and the old cell state. -/
def cellNew (gf gi gg c : Ideal .f32) : Ideal .f32 :=
  FloatOps.addf (FloatOps.mulf (FloatOps.logistic gf) c) (FloatOps.mulf (FloatOps.logistic gi) (FloatOps.tanh gg))

/-- The new hidden state at one entry from the output gate's pre-activation and the new cell state. -/
def hidNew (go cn : Ideal .f32) : Ideal .f32 :=
  FloatOps.mulf (FloatOps.logistic go) (FloatOps.tanh cn)

/-- A gate at (r, s) when the weights are laid out with the contraction index FIRST (one [2048, Q] array for the
    hidden state's half, one for the input's) and the bias as a row [1, Q]: the layout of a tile and of the
    arrays the tiles are cut from. -/
def gateM {P Q : ℕ} (h x : Arr P 2048) (wh wx : Arr 2048 Q) (b : Arr 1 Q) (r : Fin P) (s : Fin Q) : EReal :=
  gate (fun k => h (ix2 r k)) (fun k => x (ix2 r k)) (fun k => wh (ix2 k s)) (fun k => wx (ix2 k s)) (b (ix2 0 s))

/-- A gate at (p, q) from the argument arrays: `W` is [2048, 4096], row `q` of it split at column 2048. -/
def gateA (hid x : Arr 4096 2048) (W : Arr 2048 4096) (b : (⟨1, ![2048]⟩ : Shape).Idx → EReal) (p : Fin 4096) (q : Fin 2048) : EReal :=
  gate (fun k => hid (ix2 p k)) (fun k => x (ix2 p k))
    (fun k => W (ix2 q ⟨k.val, by have := k.isLt; omega⟩)) (fun k => W (ix2 q ⟨2048 + k.val, by have := k.isLt; omega⟩)) (b (ix1 q))

/-- The new cell state as one function of the argument arrays. -/
def cnewA (x hid ct : Arr 4096 2048) (Wf : Arr 2048 4096) (bf : (⟨1, ![2048]⟩ : Shape).Idx → EReal)
    (Wi : Arr 2048 4096) (bi : (⟨1, ![2048]⟩ : Shape).Idx → EReal) (Wg : Arr 2048 4096) (bg : (⟨1, ![2048]⟩ : Shape).Idx → EReal) :
    Arr 4096 2048 := fun i =>
  cellNew (gateA hid x Wf bf (i 0) (i 1)) (gateA hid x Wi bi (i 0) (i 1)) (gateA hid x Wg bg (i 0) (i 1)) (ct i)

/-- The new hidden state as one function of the argument arrays. -/
def hnewA (x hid ct : Arr 4096 2048) (Wf : Arr 2048 4096) (bf : (⟨1, ![2048]⟩ : Shape).Idx → EReal)
    (Wi : Arr 2048 4096) (bi : (⟨1, ![2048]⟩ : Shape).Idx → EReal) (Wo : Arr 2048 4096) (bo : (⟨1, ![2048]⟩ : Shape).Idx → EReal)
    (Wg : Arr 2048 4096) (bg : (⟨1, ![2048]⟩ : Shape).Idx → EReal) : Arr 4096 2048 := fun i =>
  hidNew (gateA hid x Wo bo (i 0) (i 1)) (cnewA x hid ct Wf bf Wi bi Wg bg i)

/-- The logistic function spelled out on the host — one over one plus the exponential of the negation, the ones
    being the float word 1.0 — is the logistic function. -/
theorem logistic_spelled (t : Ideal .f32) :
    FloatOps.hostDivf (FloatOps.ofBits .f32 0x3F800000#32 : Ideal .f32)
        (FloatOps.addf (FloatOps.ofBits .f32 0x3F800000#32) (FloatOps.hostUnary .exp (FloatOps.hostNegf t)))
      = FloatOps.logistic t := by
  have one : (FloatOps.ofBits .f32 0x3F800000#32 : Ideal .f32) = 1 := IdealRules.sign_bit.ideal_onePat .f32
  rw [one]
  rfl

end Cert.Lstm

end
-- ==== Proof.Payload.lean ====
/-
  What one grid step computes for one tile, entry by entry.

  A step holds a [512, 2048] tile of the hidden state and of the input, eight [2048, 256] tiles of weights (for
  each of the four gates the rows that meet the hidden state and the rows that meet the input), four [1, 256]
  bias rows and a [512, 256] tile of the old cell state.  Each gate is two matrix products into a zero
  accumulator, added, plus the bias row broadcast down the 512 rows; at entry (r, s) a product is the plain sum
  ∑ₖ a[r, k] · w[k, s] over the 2048 contracted positions.  The new cell tile and the new hidden tile are the
  pointwise cell update of those gates.
-/
import proofs.«108310_j36086315221096_2_alg».proof.Proof.Gen.KernelIdeal.Skeleton
import proofs.«108310_j36086315221096_2_alg».proof.Proof.Spec
import Idealize.ShloMosaic.Lib.Pipeline.Value
import Idealize.ShloMosaic.Lib.ValueIdx
import Idealize.ShloMosaic.PureOps.Ideal.Laws

noncomputable section

namespace Cert.Lstm.Payload

open Cert.KernelIdeal Cert.KernelIdeal.Gen Idealize.ShloMosaic Idealize.ShloMosaic.ValueIdx Cert.Lstm

/-- On the first axis the left operand's index is the result's row. -/
theorem lhs_row (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl

/-- On the second axis the right operand's index is the result's column. -/
theorem rhs_col (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- A [512, 2048] × [2048, 256] product into the zero accumulator, at entry (r, s): the sum over the 2048 contracted
    positions of left[r, k] · right[k, s]. -/
theorem matmul_entry (l : FVec Ideal S512x2048 .bf16) (w : FVec Ideal S2048x256 .bf16) (r : Fin 512) (s : Fin 256) :
    matmul dot_S512x2048_S2048x256_S512x256_1_0_0_1_n_n none l w (constant S512x256 .f32 0x00000000#32) (ix2 r s)
      = ∑ k : Fin 2048, l (ix2 r k) * w (ix2 k s) := by
  simp only [matmul]
  rw [Ideal.matmul_constant_zero_apply, ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 r s) ((contrEquiv1 dot_S512x2048_S2048x256_S512x256_1_0_0_1_n_n 2048 rfl rfl).symm k) = ix2 r k := funext fun a => Fin.ext (by
    match a with
    | ⟨0, _⟩ => exact lhs_row _ _
    | ⟨1, _⟩ => exact (dot_S512x2048_S2048x256_S512x256_1_0_0_1_n_n.lhsIdx_val_of_single rfl _ _).trans hk)
  have er : dot_S512x2048_S2048x256_S512x256_1_0_0_1_n_n.rhsIdx (ix2 r s) ((contrEquiv1 dot_S512x2048_S2048x256_S512x256_1_0_0_1_n_n 2048 rfl rfl).symm k) = ix2 k s := funext fun a => Fin.ext (by
    match a with
    | ⟨0, _⟩ => exact (dot_S512x2048_S2048x256_S512x256_1_0_0_1_n_n.rhsIdx_val_of_single rfl _ _).trans hk
    | ⟨1, _⟩ => exact rhs_col _ _)
  rw [el, er]

/-- A bias row [1, 256] broadcast down 512 rows, at entry (r, s), is the row's entry s. -/
theorem bias_entry (b : Vec Ideal S1x256 .f32) (r : Fin 512) (s : Fin 256) :
    broadcastTo S512x256 b broadcasts_S1x256_S512x256 (ix2 r s) = b (ix2 0 s) :=
  broadcastTo_apply b broadcasts_S1x256_S512x256 (ix2 r s) (ix2 0 s) (fun a => match a with
    | ⟨0, _⟩ => by show 0 = (if (1 : Nat) = 1 then 0 else r.val); rw [if_pos rfl]
    | ⟨1, _⟩ => by show s.val = (if (256 : Nat) = 1 then 0 else s.val); rw [if_neg (by decide)])

/-- One gate of the tile at entry (r, s): the two products added, plus the bias. -/
theorem gate_entry (h x : FVec Ideal S512x2048 .bf16) (wh wx : Vec Ideal S2048x256 .bf16) (b : Vec Ideal S1x256 .f32) (r : Fin 512) (s : Fin 256) :
    addf (addf (matmul dot_S512x2048_S2048x256_S512x256_1_0_0_1_n_n none h (shapeCast S2048x256 wh shapeCasts_S2048x256_S2048x256 : FVec Ideal S2048x256 .bf16) (constant S512x256 .f32 0x00000000#32))
               (matmul dot_S512x2048_S2048x256_S512x256_1_0_0_1_n_n none x (shapeCast S2048x256 wx shapeCasts_S2048x256_S2048x256 : FVec Ideal S2048x256 .bf16) (constant S512x256 .f32 0x00000000#32)))
         (broadcastTo S512x256 (shapeCast S1x256 b shapeCasts_S1x256_S1x256) broadcasts_S1x256_S512x256) (ix2 r s)
      = gateM h x wh wx b r s := by
  rw [shapeCast_self, shapeCast_self, shapeCast_self]
  show (matmul dot_S512x2048_S2048x256_S512x256_1_0_0_1_n_n none h (wh : FVec Ideal S2048x256 .bf16) (constant S512x256 .f32 0x00000000#32) (ix2 r s)
        + matmul dot_S512x2048_S2048x256_S512x256_1_0_0_1_n_n none x (wx : FVec Ideal S2048x256 .bf16) (constant S512x256 .f32 0x00000000#32) (ix2 r s))
        + broadcastTo S512x256 b broadcasts_S1x256_S512x256 (ix2 r s) = _
  rw [matmul_entry, matmul_entry, bias_entry]
  rfl

theorem tileH_eq (x0 : Vec Ideal S512x2048 .bf16) : k0_pay3 x0 = x0 := shapeCast_self _ _
theorem tileX_eq (x1 : Vec Ideal S512x2048 .bf16) : k0_pay4 x1 = x1 := shapeCast_self _ _

/-- The value stored to the new cell state's tile, at entry (r, s). -/
theorem cell_entry (x0 x1 : Vec Ideal S512x2048 .bf16) (x2 x3 x4 x5 x8 x9 : Vec Ideal S2048x256 .bf16)
    (x10 x11 x13 : Vec Ideal S1x256 .f32) (x14 : Vec Ideal S512x256 .f32) (r : Fin 512) (s : Fin 256) :
    k0_pay1 (k0_pay3 x0) (k0_pay4 x1) (k0_pay5 x0 x1 x2 x3 x10) (k0_pay6 x0 x1 x4 x5 x11) x8 x9 x13 x14 (ix2 r s)
      = cellNew (gateM x0 x1 x2 x3 x10 r s) (gateM x0 x1 x4 x5 x11 r s) (gateM x0 x1 x8 x9 x13 r s) (x14 (ix2 r s)) := by
  have e1 := (gate_entry (k0_pay3 x0) (k0_pay4 x1) x2 x3 x10 r s).trans (by rw [tileH_eq, tileX_eq])
  have e2 := (gate_entry (k0_pay3 x0) (k0_pay4 x1) x4 x5 x11 r s).trans (by rw [tileH_eq, tileX_eq])
  have e3 := (gate_entry (k0_pay3 x0) (k0_pay4 x1) x8 x9 x13 r s).trans (by rw [tileH_eq, tileX_eq])
  rw [← e1, ← e2, ← e3]
  rfl

/-- The value stored to the new hidden state's tile, at entry (r, s). -/
theorem hid_entry (x0 x1 : Vec Ideal S512x2048 .bf16) (x2 x3 x4 x5 x6 x7 x8 x9 : Vec Ideal S2048x256 .bf16)
    (x10 x11 x12 x13 : Vec Ideal S1x256 .f32) (x14 : Vec Ideal S512x256 .f32) (r : Fin 512) (s : Fin 256) :
    k0_pay2 (k0_pay3 x0) (k0_pay4 x1) (k0_pay5 x0 x1 x2 x3 x10) (k0_pay6 x0 x1 x4 x5 x11) (k0_pay7 x0 x6) (k0_pay8 x1 x7) x12 x8 x9 x13 x14 (ix2 r s)
      = hidNew (gateM x0 x1 x6 x7 x12 r s)
          (cellNew (gateM x0 x1 x2 x3 x10 r s) (gateM x0 x1 x4 x5 x11 r s) (gateM x0 x1 x8 x9 x13 r s) (x14 (ix2 r s))) := by
  have e0 := cell_entry x0 x1 x2 x3 x4 x5 x8 x9 x10 x11 x13 x14 r s
  have e4 := (gate_entry (k0_pay3 x0) (k0_pay4 x1) x6 x7 x12 r s).trans (by rw [tileH_eq, tileX_eq])
  rw [← e0, ← e4]
  rfl

end Cert.Lstm.Payload

end
-- ==== Proof.HostArrays.lean ====
/-
  The arrays the tiles are cut from, entry by entry, in terms of the argument arrays.

  Before the tiled computation starts, the hidden state and the input are converted to the 16-bit format (the
  identity on extended reals); each weight matrix W [2048, 4096] is converted, transposed to [4096, 2048] and cut
  into its first 2048 rows and its last 2048 rows, so that
      (upper half)[k, n] = W[n, k],        (lower half)[k, n] = W[n, 2048 + k];
  each bias vector [2048] is viewed as a row [1, 2048].
-/
import proofs.«108310_j36086315221096_2_alg».proof.Proof.Gen.KernelIdeal.Frame
import proofs.«108310_j36086315221096_2_alg».proof.Proof.Spec
import Idealize.ShloMosaic.Lib.Pipeline.Value
import Idealize.ShloMosaic.Lib.ValueIdx
import Idealize.ShloMosaic.Lib.StableHlo.Run

noncomputable section

namespace Cert.Lstm.HostArrays

open Cert.KernelIdeal Cert.KernelIdeal.Gen Idealize.ShloMosaic Idealize.ShloMosaic.TcCoe Idealize.ShloMosaic.ValueIdx Idealize.SL.Sem
open Idealize.ShloMosaic.StableHlo Cert.Lstm

/-- The upper half of the transposed weight: entry (k, n) is W[n, k]. -/
theorem upper_entry (W : FVec Ideal S2048x4096 .f32) (k n : Fin 2048) :
    extractStridedSlice S2048x2048 ![0, 0]
        (transpose S4096x2048 [1, 0] (truncf .bf16 W bitsLt_bf16_f32 : FVec Ideal S2048x4096 .bf16) transposes_S2048x4096_S4096x2048_1_0)
        slices_S4096x2048_S2048x2048_0_0 (ix2 k n)
      = W (ix2 n ⟨k.val, by have := k.isLt; omega⟩) := by
  refine (extractStridedSlice_apply ![0, 0] _ slices_S4096x2048_S2048x2048_0_0 (ix2 k n)
    (ix2 (⟨k.val, by have := k.isLt; omega⟩ : Fin 4096) n) (fun a => match a with
      | ⟨0, _⟩ => by show k.val = 0 + k.val; omega
      | ⟨1, _⟩ => by show n.val = 0 + n.val; omega)).trans ?_
  refine (transpose_apply [1, 0] _ transposes_S2048x4096_S4096x2048_1_0 (ix2 (⟨k.val, by have := k.isLt; omega⟩ : Fin 4096) n)
    (ix2 n (⟨k.val, by have := k.isLt; omega⟩ : Fin 4096)) (fun b => match b with
      | ⟨0, _⟩ => rfl
      | ⟨1, _⟩ => rfl)).trans ?_
  rfl

/-- The lower half of the transposed weight: entry (k, n) is W[n, 2048 + k]. -/
theorem lower_entry (W : FVec Ideal S2048x4096 .f32) (k n : Fin 2048) :
    extractStridedSlice S2048x2048 ![2048, 0]
        (transpose S4096x2048 [1, 0] (truncf .bf16 W bitsLt_bf16_f32 : FVec Ideal S2048x4096 .bf16) transposes_S2048x4096_S4096x2048_1_0)
        slices_S4096x2048_S2048x2048_2048_0 (ix2 k n)
      = W (ix2 n ⟨2048 + k.val, by have := k.isLt; omega⟩) := by
  refine (extractStridedSlice_apply ![2048, 0] _ slices_S4096x2048_S2048x2048_2048_0 (ix2 k n)
    (ix2 (⟨2048 + k.val, by have := k.isLt; omega⟩ : Fin 4096) n) (fun a => match a with
      | ⟨0, _⟩ => by show 2048 + k.val = 2048 + k.val; omega
      | ⟨1, _⟩ => by show n.val = 0 + n.val; omega)).trans ?_
  refine (transpose_apply [1, 0] _ transposes_S2048x4096_S4096x2048_1_0 (ix2 (⟨2048 + k.val, by have := k.isLt; omega⟩ : Fin 4096) n)
    (ix2 n (⟨2048 + k.val, by have := k.isLt; omega⟩ : Fin 4096)) (fun b => match b with
      | ⟨0, _⟩ => rfl
      | ⟨1, _⟩ => rfl)).trans ?_
  rfl

/-- A bias vector viewed as a row: entry (0, n) is b[n]. -/
theorem row_entry {α : Type} (b : S2048.Idx → α) (z : Fin 1) (n : Fin 2048) :
    shapeCast S1x2048 b shapeCasts_S2048_S1x2048 (ix2 z n) = b (ix1 n) :=
  shapeCast_apply b shapeCasts_S2048_S1x2048 (ix2 z n) (ix1 n) (by
    rw [Shape.rowMajor_val_one, Shape.rowMajor_val_two]
    show n.val = z.val * 2048 + n.val
    have := z.isLt; omega)

variable (m : (ℓ : Loc nD τ sig) → Buf (Elt Ideal) ℓ)

/-- The hidden state as the tiles find it. -/
theorem V_hid (c : Dev nD) (i : S4096x2048.Idx) : (V m c main_v1 : S4096x2048.Idx → EReal) i = (m ((c : Thread nD τ).loc main_arg1)) i := by
  have e : (V m c main_v1 : S4096x2048.Idx → EReal) = (truncf .bf16 (m ((c : Thread nD τ).loc main_arg1)) bitsLt_bf16_f32 : FVec Ideal S4096x2048 .bf16) := by
    dsimp only [V, hostOps0]; after_results <;> rfl
  rw [e]; rfl

/-- The input as the tiles find it. -/
theorem V_x (c : Dev nD) (i : S4096x2048.Idx) : (V m c main_v0 : S4096x2048.Idx → EReal) i = (m ((c : Thread nD τ).loc main_arg0)) i := by
  have e : (V m c main_v0 : S4096x2048.Idx → EReal) = (truncf .bf16 (m ((c : Thread nD τ).loc main_arg0)) bitsLt_bf16_f32 : FVec Ideal S4096x2048 .bf16) := by
    dsimp only [V, hostOps0]; after_results <;> rfl
  rw [e]; rfl

/-- Gate f: the rows of its weight that meet the hidden state, as the tiles find them. -/
theorem V_whf (c : Dev nD) (k n : Fin 2048) :
    (V m c main_v4 : S2048x2048.Idx → EReal) (ix2 k n) = (m ((c : Thread nD τ).loc main_arg3)) (ix2 n ⟨k.val, by have := k.isLt; omega⟩) := by
  have e : (V m c main_v4 : S2048x2048.Idx → EReal) = extractStridedSlice S2048x2048 ![0, 0]
      (transpose S4096x2048 [1, 0] (truncf .bf16 (m ((c : Thread nD τ).loc main_arg3)) bitsLt_bf16_f32 : FVec Ideal S2048x4096 .bf16) transposes_S2048x4096_S4096x2048_1_0)
      slices_S4096x2048_S2048x2048_0_0 := by
    dsimp only [V, hostOps0]; after_results <;> rfl
  rw [e]; exact upper_entry _ k n

/-- Gate f: the rows of its weight that meet the input, as the tiles find them. -/
theorem V_wxf (c : Dev nD) (k n : Fin 2048) :
    (V m c main_v5 : S2048x2048.Idx → EReal) (ix2 k n) = (m ((c : Thread nD τ).loc main_arg3)) (ix2 n ⟨2048 + k.val, by have := k.isLt; omega⟩) := by
  have e : (V m c main_v5 : S2048x2048.Idx → EReal) = extractStridedSlice S2048x2048 ![2048, 0]
      (transpose S4096x2048 [1, 0] (truncf .bf16 (m ((c : Thread nD τ).loc main_arg3)) bitsLt_bf16_f32 : FVec Ideal S2048x4096 .bf16) transposes_S2048x4096_S4096x2048_1_0)
      slices_S4096x2048_S2048x2048_2048_0 := by
    dsimp only [V, hostOps0]; after_results <;> rfl
  rw [e]; exact lower_entry _ k n

/-- Gate f: its bias as a row, as the tiles find it. -/
theorem V_bf (c : Dev nD) (z : Fin 1) (n : Fin 2048) :
    (V m c main_v18 : S1x2048.Idx → EReal) (ix2 z n) = (m ((c : Thread nD τ).loc main_arg4)) (ix1 n) := by
  have e : (V m c main_v18 : S1x2048.Idx → EReal) = shapeCast S1x2048 (m ((c : Thread nD τ).loc main_arg4)) shapeCasts_S2048_S1x2048 := by
    dsimp only [V, hostOps0]; after_results <;> rfl
  rw [e]; exact row_entry _ z n

/-- Gate i: the rows of its weight that meet the hidden state, as the tiles find them. -/
theorem V_whi (c : Dev nD) (k n : Fin 2048) :
    (V m c main_v8 : S2048x2048.Idx → EReal) (ix2 k n) = (m ((c : Thread nD τ).loc main_arg5)) (ix2 n ⟨k.val, by have := k.isLt; omega⟩) := by
  have e : (V m c main_v8 : S2048x2048.Idx → EReal) = extractStridedSlice S2048x2048 ![0, 0]
      (transpose S4096x2048 [1, 0] (truncf .bf16 (m ((c : Thread nD τ).loc main_arg5)) bitsLt_bf16_f32 : FVec Ideal S2048x4096 .bf16) transposes_S2048x4096_S4096x2048_1_0)
      slices_S4096x2048_S2048x2048_0_0 := by
    dsimp only [V, hostOps0]; after_results <;> rfl
  rw [e]; exact upper_entry _ k n

/-- Gate i: the rows of its weight that meet the input, as the tiles find them. -/
theorem V_wxi (c : Dev nD) (k n : Fin 2048) :
    (V m c main_v9 : S2048x2048.Idx → EReal) (ix2 k n) = (m ((c : Thread nD τ).loc main_arg5)) (ix2 n ⟨2048 + k.val, by have := k.isLt; omega⟩) := by
  have e : (V m c main_v9 : S2048x2048.Idx → EReal) = extractStridedSlice S2048x2048 ![2048, 0]
      (transpose S4096x2048 [1, 0] (truncf .bf16 (m ((c : Thread nD τ).loc main_arg5)) bitsLt_bf16_f32 : FVec Ideal S2048x4096 .bf16) transposes_S2048x4096_S4096x2048_1_0)
      slices_S4096x2048_S2048x2048_2048_0 := by
    dsimp only [V, hostOps0]; after_results <;> rfl
  rw [e]; exact lower_entry _ k n

/-- Gate i: its bias as a row, as the tiles find it. -/
theorem V_bi (c : Dev nD) (z : Fin 1) (n : Fin 2048) :
    (V m c main_v19 : S1x2048.Idx → EReal) (ix2 z n) = (m ((c : Thread nD τ).loc main_arg6)) (ix1 n) := by
  have e : (V m c main_v19 : S1x2048.Idx → EReal) = shapeCast S1x2048 (m ((c : Thread nD τ).loc main_arg6)) shapeCasts_S2048_S1x2048 := by
    dsimp only [V, hostOps0]; after_results <;> rfl
  rw [e]; exact row_entry _ z n

/-- Gate o: the rows of its weight that meet the hidden state, as the tiles find them. -/
theorem V_who (c : Dev nD) (k n : Fin 2048) :
    (V m c main_v12 : S2048x2048.Idx → EReal) (ix2 k n) = (m ((c : Thread nD τ).loc main_arg7)) (ix2 n ⟨k.val, by have := k.isLt; omega⟩) := by
  have e : (V m c main_v12 : S2048x2048.Idx → EReal) = extractStridedSlice S2048x2048 ![0, 0]
      (transpose S4096x2048 [1, 0] (truncf .bf16 (m ((c : Thread nD τ).loc main_arg7)) bitsLt_bf16_f32 : FVec Ideal S2048x4096 .bf16) transposes_S2048x4096_S4096x2048_1_0)
      slices_S4096x2048_S2048x2048_0_0 := by
    dsimp only [V, hostOps0]; after_results <;> rfl
  rw [e]; exact upper_entry _ k n

/-- Gate o: the rows of its weight that meet the input, as the tiles find them. -/
theorem V_wxo (c : Dev nD) (k n : Fin 2048) :
    (V m c main_v13 : S2048x2048.Idx → EReal) (ix2 k n) = (m ((c : Thread nD τ).loc main_arg7)) (ix2 n ⟨2048 + k.val, by have := k.isLt; omega⟩) := by
  have e : (V m c main_v13 : S2048x2048.Idx → EReal) = extractStridedSlice S2048x2048 ![2048, 0]
      (transpose S4096x2048 [1, 0] (truncf .bf16 (m ((c : Thread nD τ).loc main_arg7)) bitsLt_bf16_f32 : FVec Ideal S2048x4096 .bf16) transposes_S2048x4096_S4096x2048_1_0)
      slices_S4096x2048_S2048x2048_2048_0 := by
    dsimp only [V, hostOps0]; after_results <;> rfl
  rw [e]; exact lower_entry _ k n

/-- Gate o: its bias as a row, as the tiles find it. -/
theorem V_bo (c : Dev nD) (z : Fin 1) (n : Fin 2048) :
    (V m c main_v20 : S1x2048.Idx → EReal) (ix2 z n) = (m ((c : Thread nD τ).loc main_arg8)) (ix1 n) := by
  have e : (V m c main_v20 : S1x2048.Idx → EReal) = shapeCast S1x2048 (m ((c : Thread nD τ).loc main_arg8)) shapeCasts_S2048_S1x2048 := by
    dsimp only [V, hostOps0]; after_results <;> rfl
  rw [e]; exact row_entry _ z n

/-- Gate g: the rows of its weight that meet the hidden state, as the tiles find them. -/
theorem V_whg (c : Dev nD) (k n : Fin 2048) :
    (V m c main_v16 : S2048x2048.Idx → EReal) (ix2 k n) = (m ((c : Thread nD τ).loc main_arg9)) (ix2 n ⟨k.val, by have := k.isLt; omega⟩) := by
  have e : (V m c main_v16 : S2048x2048.Idx → EReal) = extractStridedSlice S2048x2048 ![0, 0]
      (transpose S4096x2048 [1, 0] (truncf .bf16 (m ((c : Thread nD τ).loc main_arg9)) bitsLt_bf16_f32 : FVec Ideal S2048x4096 .bf16) transposes_S2048x4096_S4096x2048_1_0)
      slices_S4096x2048_S2048x2048_0_0 := by
    dsimp only [V, hostOps0]; after_results <;> rfl
  rw [e]; exact upper_entry _ k n

/-- Gate g: the rows of its weight that meet the input, as the tiles find them. -/
theorem V_wxg (c : Dev nD) (k n : Fin 2048) :
    (V m c main_v17 : S2048x2048.Idx → EReal) (ix2 k n) = (m ((c : Thread nD τ).loc main_arg9)) (ix2 n ⟨2048 + k.val, by have := k.isLt; omega⟩) := by
  have e : (V m c main_v17 : S2048x2048.Idx → EReal) = extractStridedSlice S2048x2048 ![2048, 0]
      (transpose S4096x2048 [1, 0] (truncf .bf16 (m ((c : Thread nD τ).loc main_arg9)) bitsLt_bf16_f32 : FVec Ideal S2048x4096 .bf16) transposes_S2048x4096_S4096x2048_1_0)
      slices_S4096x2048_S2048x2048_2048_0 := by
    dsimp only [V, hostOps0]; after_results <;> rfl
  rw [e]; exact lower_entry _ k n

/-- Gate g: its bias as a row, as the tiles find it. -/
theorem V_bg (c : Dev nD) (z : Fin 1) (n : Fin 2048) :
    (V m c main_v21 : S1x2048.Idx → EReal) (ix2 z n) = (m ((c : Thread nD τ).loc main_arg10)) (ix1 n) := by
  have e : (V m c main_v21 : S1x2048.Idx → EReal) = shapeCast S1x2048 (m ((c : Thread nD τ).loc main_arg10)) shapeCasts_S2048_S1x2048 := by
    dsimp only [V, hostOps0]; after_results <;> rfl
  rw [e]; exact row_entry _ z n

/-- A gate over the arrays the tiles are cut from is the gate over the argument arrays. -/
theorem gateM_eq_gateA (Hb Xb : Arr 4096 2048) (Wh Wx : Arr 2048 2048) (B : Arr 1 2048)
    (hid x : Arr 4096 2048) (W : Arr 2048 4096) (b : (⟨1, ![2048]⟩ : Shape).Idx → EReal)
    (hH : ∀ i, Hb i = hid i) (hX : ∀ i, Xb i = x i)
    (hWh : ∀ k n : Fin 2048, Wh (ix2 k n) = W (ix2 n ⟨k.val, by have := k.isLt; omega⟩))
    (hWx : ∀ k n : Fin 2048, Wx (ix2 k n) = W (ix2 n ⟨2048 + k.val, by have := k.isLt; omega⟩))
    (hB : ∀ (z : Fin 1) (n : Fin 2048), B (ix2 z n) = b (ix1 n)) (p : Fin 4096) (q : Fin 2048) :
    gateM Hb Xb Wh Wx B p q = gateA hid x W b p q := by
  unfold gateM gateA
  simp only [hH, hX, hWh, hWx, hB]

end Cert.Lstm.HostArrays

end
-- ==== Proof.Blocks.lean ====
/-
  From tiles to arrays.

  The two result arrays [4096, 2048] are written tile by tile: the grid point with coordinates (j, i) writes the
  [512, 256] tile at rows 512·i …, columns 256·j … of each, computed from rows 512·i … of the hidden state and of the
  input (all 2048 columns), columns 256·j … of the eight weight halves and of the four bias rows (all 2048 rows), and
  the same tile of the old cell state.  A gate at entry (r, s) of that tile contracts over whole rows and whole
  columns, so it is the gate of the whole arrays at entry (512·i + r, 256·j + s): each tile written is the
  restriction of ONE function of the arrays.  The 64 tiles cover the results, so after the run each result array is
  that function; and the arrays the tiles are cut from are the argument arrays re-laid (converted, transposed, cut
  in halves, viewed as rows), which turns it into the function of the arguments.
-/
import proofs.«108310_j36086315221096_2_alg».proof.Proof.Gen.KernelIdeal.Value
import proofs.«108310_j36086315221096_2_alg».proof.Proof.Payload
import proofs.«108310_j36086315221096_2_alg».proof.Proof.HostArrays

noncomputable section

namespace Cert.Lstm.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.Lstm Cert.Lstm.Payload Cert.Lstm.HostArrays

variable (m : (ℓ : Loc nD τ sig) → Buf (Elt Ideal) ℓ) (ρ : Dev nD → PrngReg)

theorem zero_off : (![0, 0] : Fin 2 → Nat) = fun _ => 0 := funext fun a => by fin_cases a <;> rfl

/-! ## The arrays the tiles are cut from -/

abbrev aH (c : Dev nD) : Arr 4096 2048 := V m c main_v1
abbrev aX (c : Dev nD) : Arr 4096 2048 := V m c main_v0
abbrev aC (c : Dev nD) : Arr 4096 2048 := V m c main_arg2
abbrev aWhf (c : Dev nD) : Arr 2048 2048 := V m c main_v4
abbrev aWxf (c : Dev nD) : Arr 2048 2048 := V m c main_v5
abbrev aWhi (c : Dev nD) : Arr 2048 2048 := V m c main_v8
abbrev aWxi (c : Dev nD) : Arr 2048 2048 := V m c main_v9
abbrev aWho (c : Dev nD) : Arr 2048 2048 := V m c main_v12
abbrev aWxo (c : Dev nD) : Arr 2048 2048 := V m c main_v13
abbrev aWhg (c : Dev nD) : Arr 2048 2048 := V m c main_v16
abbrev aWxg (c : Dev nD) : Arr 2048 2048 := V m c main_v17
abbrev aBf (c : Dev nD) : Arr 1 2048 := V m c main_v18
abbrev aBi (c : Dev nD) : Arr 1 2048 := V m c main_v19
abbrev aBo (c : Dev nD) : Arr 1 2048 := V m c main_v20
abbrev aBg (c : Dev nD) : Arr 1 2048 := V m c main_v21

/-- The new cell state as one function of those arrays. -/
def cnewR (c : Dev nD) : S4096x2048.Idx → EReal := fun i =>
  cellNew (gateM (aH m c) (aX m c) (aWhf m c) (aWxf m c) (aBf m c) (i 0) (i 1))
    (gateM (aH m c) (aX m c) (aWhi m c) (aWxi m c) (aBi m c) (i 0) (i 1))
    (gateM (aH m c) (aX m c) (aWhg m c) (aWxg m c) (aBg m c) (i 0) (i 1))
    (aC m c i)

/-- The new hidden state as one function of those arrays. -/
def hnewR (c : Dev nD) : S4096x2048.Idx → EReal := fun i =>
  hidNew (gateM (aH m c) (aX m c) (aWho m c) (aWxo m c) (aBo m c) (i 0) (i 1)) (cnewR m c i)

/-! ## The index maps, decided over the 64 grid points -/

/-- The tiles of the hidden state, the input and the old cell state sit in the result tile's rows (and, for the
    cell state, columns); the two results share one index map; there are 8 × 8 tiles. -/
theorem idx_act : ∀ t : Fin cfg0.N,
    win0_0.index t (0 : Fin 2) = win0_16.index t (0 : Fin 2) ∧ win0_0.index t (1 : Fin 2) = 0
    ∧ win0_1.index t (0 : Fin 2) = win0_16.index t (0 : Fin 2) ∧ win0_1.index t (1 : Fin 2) = 0
    ∧ win0_14.index t (0 : Fin 2) = win0_16.index t (0 : Fin 2) ∧ win0_14.index t (1 : Fin 2) = win0_16.index t (1 : Fin 2)
    ∧ win0_15.index t (0 : Fin 2) = win0_16.index t (0 : Fin 2) ∧ win0_15.index t (1 : Fin 2) = win0_16.index t (1 : Fin 2)
    ∧ win0_16.index t (0 : Fin 2) ≤ 7 ∧ win0_16.index t (1 : Fin 2) ≤ 7 :=
  (by decide +kernel : ∀ t : Fin grid0.N, _)

/-- The tiles of the weight halves and of the bias rows sit in the result tile's columns. -/
theorem idx_par : ∀ t : Fin cfg0.N,
    (win0_2.index t (0 : Fin 2) = 0 ∧ win0_2.index t (1 : Fin 2) = win0_16.index t (1 : Fin 2))
    ∧ (win0_3.index t (0 : Fin 2) = 0 ∧ win0_3.index t (1 : Fin 2) = win0_16.index t (1 : Fin 2))
    ∧ (win0_4.index t (0 : Fin 2) = 0 ∧ win0_4.index t (1 : Fin 2) = win0_16.index t (1 : Fin 2))
    ∧ (win0_5.index t (0 : Fin 2) = 0 ∧ win0_5.index t (1 : Fin 2) = win0_16.index t (1 : Fin 2))
    ∧ (win0_6.index t (0 : Fin 2) = 0 ∧ win0_6.index t (1 : Fin 2) = win0_16.index t (1 : Fin 2))
    ∧ (win0_7.index t (0 : Fin 2) = 0 ∧ win0_7.index t (1 : Fin 2) = win0_16.index t (1 : Fin 2))
    ∧ (win0_8.index t (0 : Fin 2) = 0 ∧ win0_8.index t (1 : Fin 2) = win0_16.index t (1 : Fin 2))
    ∧ (win0_9.index t (0 : Fin 2) = 0 ∧ win0_9.index t (1 : Fin 2) = win0_16.index t (1 : Fin 2))
    ∧ (win0_10.index t (0 : Fin 2) = 0 ∧ win0_10.index t (1 : Fin 2) = win0_16.index t (1 : Fin 2))
    ∧ (win0_11.index t (0 : Fin 2) = 0 ∧ win0_11.index t (1 : Fin 2) = win0_16.index t (1 : Fin 2))
    ∧ (win0_12.index t (0 : Fin 2) = 0 ∧ win0_12.index t (1 : Fin 2) = win0_16.index t (1 : Fin 2))
    ∧ (win0_13.index t (0 : Fin 2) = 0 ∧ win0_13.index t (1 : Fin 2) = win0_16.index t (1 : Fin 2)) :=
  (by decide +kernel : ∀ t : Fin grid0.N, _)

/-- Every one of the 8 × 8 tiles is some grid point's. -/
theorem idx_onto : ∀ (q0 : Fin 8) (q1 : Fin 8), ∃ t : Fin cfg0.N, win0_16.index t = ![q0.val, q1.val] :=
  (by decide +kernel : ∀ (q0 : Fin 8) (q1 : Fin 8), ∃ t : Fin grid0.N, win0_16.index t = ![q0.val, q1.val])

/-! ## A tile's entries in the arrays -/

/-- Row r of the hidden state's tile at point t is row 512·i + r of the array. -/
theorem tile_hid (c : Dev nD) (t : Fin cfg0.N) (r : Fin 512) (R : Fin 4096)
    (hR : R.val = win0_16.index t (0 : Fin 2) * 512 + r.val) (k : Fin 2048) :
    (iblk m c 0 t : Vec Ideal S512x2048 .bf16) (ix2 r k) = aH m c (ix2 R k) := by
  obtain ⟨e0, e1, -⟩ := idx_act t
  show V m c main_v1 (((cfg0.win 0).blk t).view.emb (ix2 r k)) = V m c main_v1 (ix2 R k)
  refine congrArg (V m c main_v1) (funext fun a => Fin.ext ?_)
  match a with
  | ⟨0, _⟩ => show win0_0.index t (0 : Fin 2) * 512 + 1 * r.val = R.val; omega
  | ⟨1, _⟩ => show win0_0.index t (1 : Fin 2) * 2048 + 1 * k.val = k.val; omega

/-- Row r of the input's tile at point t is row 512·i + r of the array. -/
theorem tile_x (c : Dev nD) (t : Fin cfg0.N) (r : Fin 512) (R : Fin 4096)
    (hR : R.val = win0_16.index t (0 : Fin 2) * 512 + r.val) (k : Fin 2048) :
    (iblk m c 1 t : Vec Ideal S512x2048 .bf16) (ix2 r k) = aX m c (ix2 R k) := by
  obtain ⟨-, -, e0, e1, -⟩ := idx_act t
  show V m c main_v0 (((cfg0.win 1).blk t).view.emb (ix2 r k)) = V m c main_v0 (ix2 R k)
  refine congrArg (V m c main_v0) (funext fun a => Fin.ext ?_)
  match a with
  | ⟨0, _⟩ => show win0_1.index t (0 : Fin 2) * 512 + 1 * r.val = R.val; omega
  | ⟨1, _⟩ => show win0_1.index t (1 : Fin 2) * 2048 + 1 * k.val = k.val; omega

/-- Entry (r, s) of the old cell state's tile at point t is entry (512·i + r, 256·j + s) of the array. -/
theorem tile_c (c : Dev nD) (t : Fin cfg0.N) (r : Fin 512) (R : Fin 4096) (hR : R.val = win0_16.index t (0 : Fin 2) * 512 + r.val)
    (s : Fin 256) (S : Fin 2048) (hS : S.val = win0_16.index t (1 : Fin 2) * 256 + s.val) :
    (iblk m c 14 t : Vec Ideal S512x256 .f32) (ix2 r s) = aC m c (ix2 R S) := by
  obtain ⟨-, -, -, -, e0, e1, -⟩ := idx_act t
  show V m c main_arg2 (((cfg0.win 14).blk t).view.emb (ix2 r s)) = V m c main_arg2 (ix2 R S)
  refine congrArg (V m c main_arg2) (funext fun a => Fin.ext ?_)
  match a with
  | ⟨0, _⟩ => show win0_14.index t (0 : Fin 2) * 512 + 1 * r.val = R.val; omega
  | ⟨1, _⟩ => show win0_14.index t (1 : Fin 2) * 256 + 1 * s.val = S.val; omega

/-- Column s of this weight tile at point t is column 256·j + s of the array it is cut from. -/
theorem tile_aWhf (c : Dev nD) (t : Fin cfg0.N) (s : Fin 256) (S : Fin 2048)
    (hS : S.val = win0_16.index t (1 : Fin 2) * 256 + s.val) (k : Fin 2048) :
    (iblk m c 2 t : Vec Ideal S2048x256 .bf16) (ix2 k s) = aWhf m c (ix2 k S) := by
  obtain ⟨⟨e0, e1⟩, -, -, -, -, -, -, -, -, -, -, -⟩ := idx_par t
  show V m c main_v4 (((cfg0.win 2).blk t).view.emb (ix2 k s)) = V m c main_v4 (ix2 k S)
  refine congrArg (V m c main_v4) (funext fun a => Fin.ext ?_)
  match a with
  | ⟨0, _⟩ => show win0_2.index t (0 : Fin 2) * 2048 + 1 * k.val = k.val; omega
  | ⟨1, _⟩ => show win0_2.index t (1 : Fin 2) * 256 + 1 * s.val = S.val; omega

/-- Column s of this weight tile at point t is column 256·j + s of the array it is cut from. -/
theorem tile_aWxf (c : Dev nD) (t : Fin cfg0.N) (s : Fin 256) (S : Fin 2048)
    (hS : S.val = win0_16.index t (1 : Fin 2) * 256 + s.val) (k : Fin 2048) :
    (iblk m c 3 t : Vec Ideal S2048x256 .bf16) (ix2 k s) = aWxf m c (ix2 k S) := by
  obtain ⟨-, ⟨e0, e1⟩, -, -, -, -, -, -, -, -, -, -⟩ := idx_par t
  show V m c main_v5 (((cfg0.win 3).blk t).view.emb (ix2 k s)) = V m c main_v5 (ix2 k S)
  refine congrArg (V m c main_v5) (funext fun a => Fin.ext ?_)
  match a with
  | ⟨0, _⟩ => show win0_3.index t (0 : Fin 2) * 2048 + 1 * k.val = k.val; omega
  | ⟨1, _⟩ => show win0_3.index t (1 : Fin 2) * 256 + 1 * s.val = S.val; omega

/-- Column s of this weight tile at point t is column 256·j + s of the array it is cut from. -/
theorem tile_aWhi (c : Dev nD) (t : Fin cfg0.N) (s : Fin 256) (S : Fin 2048)
    (hS : S.val = win0_16.index t (1 : Fin 2) * 256 + s.val) (k : Fin 2048) :
    (iblk m c 4 t : Vec Ideal S2048x256 .bf16) (ix2 k s) = aWhi m c (ix2 k S) := by
  obtain ⟨-, -, ⟨e0, e1⟩, -, -, -, -, -, -, -, -, -⟩ := idx_par t
  show V m c main_v8 (((cfg0.win 4).blk t).view.emb (ix2 k s)) = V m c main_v8 (ix2 k S)
  refine congrArg (V m c main_v8) (funext fun a => Fin.ext ?_)
  match a with
  | ⟨0, _⟩ => show win0_4.index t (0 : Fin 2) * 2048 + 1 * k.val = k.val; omega
  | ⟨1, _⟩ => show win0_4.index t (1 : Fin 2) * 256 + 1 * s.val = S.val; omega

/-- Column s of this weight tile at point t is column 256·j + s of the array it is cut from. -/
theorem tile_aWxi (c : Dev nD) (t : Fin cfg0.N) (s : Fin 256) (S : Fin 2048)
    (hS : S.val = win0_16.index t (1 : Fin 2) * 256 + s.val) (k : Fin 2048) :
    (iblk m c 5 t : Vec Ideal S2048x256 .bf16) (ix2 k s) = aWxi m c (ix2 k S) := by
  obtain ⟨-, -, -, ⟨e0, e1⟩, -, -, -, -, -, -, -, -⟩ := idx_par t
  show V m c main_v9 (((cfg0.win 5).blk t).view.emb (ix2 k s)) = V m c main_v9 (ix2 k S)
  refine congrArg (V m c main_v9) (funext fun a => Fin.ext ?_)
  match a with
  | ⟨0, _⟩ => show win0_5.index t (0 : Fin 2) * 2048 + 1 * k.val = k.val; omega
  | ⟨1, _⟩ => show win0_5.index t (1 : Fin 2) * 256 + 1 * s.val = S.val; omega

/-- Column s of this weight tile at point t is column 256·j + s of the array it is cut from. -/
theorem tile_aWho (c : Dev nD) (t : Fin cfg0.N) (s : Fin 256) (S : Fin 2048)
    (hS : S.val = win0_16.index t (1 : Fin 2) * 256 + s.val) (k : Fin 2048) :
    (iblk m c 6 t : Vec Ideal S2048x256 .bf16) (ix2 k s) = aWho m c (ix2 k S) := by
  obtain ⟨-, -, -, -, ⟨e0, e1⟩, -, -, -, -, -, -, -⟩ := idx_par t
  show V m c main_v12 (((cfg0.win 6).blk t).view.emb (ix2 k s)) = V m c main_v12 (ix2 k S)
  refine congrArg (V m c main_v12) (funext fun a => Fin.ext ?_)
  match a with
  | ⟨0, _⟩ => show win0_6.index t (0 : Fin 2) * 2048 + 1 * k.val = k.val; omega
  | ⟨1, _⟩ => show win0_6.index t (1 : Fin 2) * 256 + 1 * s.val = S.val; omega

/-- Column s of this weight tile at point t is column 256·j + s of the array it is cut from. -/
theorem tile_aWxo (c : Dev nD) (t : Fin cfg0.N) (s : Fin 256) (S : Fin 2048)
    (hS : S.val = win0_16.index t (1 : Fin 2) * 256 + s.val) (k : Fin 2048) :
    (iblk m c 7 t : Vec Ideal S2048x256 .bf16) (ix2 k s) = aWxo m c (ix2 k S) := by
  obtain ⟨-, -, -, -, -, ⟨e0, e1⟩, -, -, -, -, -, -⟩ := idx_par t
  show V m c main_v13 (((cfg0.win 7).blk t).view.emb (ix2 k s)) = V m c main_v13 (ix2 k S)
  refine congrArg (V m c main_v13) (funext fun a => Fin.ext ?_)
  match a with
  | ⟨0, _⟩ => show win0_7.index t (0 : Fin 2) * 2048 + 1 * k.val = k.val; omega
  | ⟨1, _⟩ => show win0_7.index t (1 : Fin 2) * 256 + 1 * s.val = S.val; omega

/-- Column s of this weight tile at point t is column 256·j + s of the array it is cut from. -/
theorem tile_aWhg (c : Dev nD) (t : Fin cfg0.N) (s : Fin 256) (S : Fin 2048)
    (hS : S.val = win0_16.index t (1 : Fin 2) * 256 + s.val) (k : Fin 2048) :
    (iblk m c 8 t : Vec Ideal S2048x256 .bf16) (ix2 k s) = aWhg m c (ix2 k S) := by
  obtain ⟨-, -, -, -, -, -, ⟨e0, e1⟩, -, -, -, -, -⟩ := idx_par t
  show V m c main_v16 (((cfg0.win 8).blk t).view.emb (ix2 k s)) = V m c main_v16 (ix2 k S)
  refine congrArg (V m c main_v16) (funext fun a => Fin.ext ?_)
  match a with
  | ⟨0, _⟩ => show win0_8.index t (0 : Fin 2) * 2048 + 1 * k.val = k.val; omega
  | ⟨1, _⟩ => show win0_8.index t (1 : Fin 2) * 256 + 1 * s.val = S.val; omega

/-- Column s of this weight tile at point t is column 256·j + s of the array it is cut from. -/
theorem tile_aWxg (c : Dev nD) (t : Fin cfg0.N) (s : Fin 256) (S : Fin 2048)
    (hS : S.val = win0_16.index t (1 : Fin 2) * 256 + s.val) (k : Fin 2048) :
    (iblk m c 9 t : Vec Ideal S2048x256 .bf16) (ix2 k s) = aWxg m c (ix2 k S) := by
  obtain ⟨-, -, -, -, -, -, -, ⟨e0, e1⟩, -, -, -, -⟩ := idx_par t
  show V m c main_v17 (((cfg0.win 9).blk t).view.emb (ix2 k s)) = V m c main_v17 (ix2 k S)
  refine congrArg (V m c main_v17) (funext fun a => Fin.ext ?_)
  match a with
  | ⟨0, _⟩ => show win0_9.index t (0 : Fin 2) * 2048 + 1 * k.val = k.val; omega
  | ⟨1, _⟩ => show win0_9.index t (1 : Fin 2) * 256 + 1 * s.val = S.val; omega

/-- Entry s of this bias tile at point t is entry 256·j + s of the bias row. -/
theorem tile_aBf (c : Dev nD) (t : Fin cfg0.N) (s : Fin 256) (S : Fin 2048)
    (hS : S.val = win0_16.index t (1 : Fin 2) * 256 + s.val) :
    (iblk m c 10 t : Vec Ideal S1x256 .f32) (ix2 0 s) = aBf m c (ix2 0 S) := by
  obtain ⟨-, -, -, -, -, -, -, -, ⟨e0, e1⟩, -, -, -⟩ := idx_par t
  show V m c main_v18 (((cfg0.win 10).blk t).view.emb (ix2 0 s)) = V m c main_v18 (ix2 0 S)
  refine congrArg (V m c main_v18) (funext fun a => Fin.ext ?_)
  match a with
  | ⟨0, _⟩ => show win0_10.index t (0 : Fin 2) * 1 + 1 * 0 = 0; omega
  | ⟨1, _⟩ => show win0_10.index t (1 : Fin 2) * 256 + 1 * s.val = S.val; omega

/-- Entry s of this bias tile at point t is entry 256·j + s of the bias row. -/
theorem tile_aBi (c : Dev nD) (t : Fin cfg0.N) (s : Fin 256) (S : Fin 2048)
    (hS : S.val = win0_16.index t (1 : Fin 2) * 256 + s.val) :
    (iblk m c 11 t : Vec Ideal S1x256 .f32) (ix2 0 s) = aBi m c (ix2 0 S) := by
  obtain ⟨-, -, -, -, -, -, -, -, -, ⟨e0, e1⟩, -, -⟩ := idx_par t
  show V m c main_v19 (((cfg0.win 11).blk t).view.emb (ix2 0 s)) = V m c main_v19 (ix2 0 S)
  refine congrArg (V m c main_v19) (funext fun a => Fin.ext ?_)
  match a with
  | ⟨0, _⟩ => show win0_11.index t (0 : Fin 2) * 1 + 1 * 0 = 0; omega
  | ⟨1, _⟩ => show win0_11.index t (1 : Fin 2) * 256 + 1 * s.val = S.val; omega

/-- Entry s of this bias tile at point t is entry 256·j + s of the bias row. -/
theorem tile_aBo (c : Dev nD) (t : Fin cfg0.N) (s : Fin 256) (S : Fin 2048)
    (hS : S.val = win0_16.index t (1 : Fin 2) * 256 + s.val) :
    (iblk m c 12 t : Vec Ideal S1x256 .f32) (ix2 0 s) = aBo m c (ix2 0 S) := by
  obtain ⟨-, -, -, -, -, -, -, -, -, -, ⟨e0, e1⟩, -⟩ := idx_par t
  show V m c main_v20 (((cfg0.win 12).blk t).view.emb (ix2 0 s)) = V m c main_v20 (ix2 0 S)
  refine congrArg (V m c main_v20) (funext fun a => Fin.ext ?_)
  match a with
  | ⟨0, _⟩ => show win0_12.index t (0 : Fin 2) * 1 + 1 * 0 = 0; omega
  | ⟨1, _⟩ => show win0_12.index t (1 : Fin 2) * 256 + 1 * s.val = S.val; omega

/-- Entry s of this bias tile at point t is entry 256·j + s of the bias row. -/
theorem tile_aBg (c : Dev nD) (t : Fin cfg0.N) (s : Fin 256) (S : Fin 2048)
    (hS : S.val = win0_16.index t (1 : Fin 2) * 256 + s.val) :
    (iblk m c 13 t : Vec Ideal S1x256 .f32) (ix2 0 s) = aBg m c (ix2 0 S) := by
  obtain ⟨-, -, -, -, -, -, -, -, -, -, -, ⟨e0, e1⟩⟩ := idx_par t
  show V m c main_v21 (((cfg0.win 13).blk t).view.emb (ix2 0 s)) = V m c main_v21 (ix2 0 S)
  refine congrArg (V m c main_v21) (funext fun a => Fin.ext ?_)
  match a with
  | ⟨0, _⟩ => show win0_13.index t (0 : Fin 2) * 1 + 1 * 0 = 0; omega
  | ⟨1, _⟩ => show win0_13.index t (1 : Fin 2) * 256 + 1 * s.val = S.val; omega

/-- Gate f of the tile at (r, s) is gate f of the arrays at (512·i + r, 256·j + s). -/
theorem gate_tile_f (c : Dev nD) (t : Fin cfg0.N) (r : Fin 512) (R : Fin 4096) (hR : R.val = win0_16.index t (0 : Fin 2) * 512 + r.val)
    (s : Fin 256) (S : Fin 2048) (hS : S.val = win0_16.index t (1 : Fin 2) * 256 + s.val) :
    gateM (iblk m c 0 t : Vec Ideal S512x2048 .bf16) (iblk m c 1 t : Vec Ideal S512x2048 .bf16) (iblk m c 2 t : Vec Ideal S2048x256 .bf16)
        (iblk m c 3 t : Vec Ideal S2048x256 .bf16) (iblk m c 10 t : Vec Ideal S1x256 .f32) r s
      = gateM (aH m c) (aX m c) (aWhf m c) (aWxf m c) (aBf m c) R S := by
  unfold gateM
  simp only [tile_hid m c t r R hR, tile_x m c t r R hR, tile_aWhf m c t s S hS, tile_aWxf m c t s S hS, tile_aBf m c t s S hS]

/-- Gate i of the tile at (r, s) is gate i of the arrays at (512·i + r, 256·j + s). -/
theorem gate_tile_i (c : Dev nD) (t : Fin cfg0.N) (r : Fin 512) (R : Fin 4096) (hR : R.val = win0_16.index t (0 : Fin 2) * 512 + r.val)
    (s : Fin 256) (S : Fin 2048) (hS : S.val = win0_16.index t (1 : Fin 2) * 256 + s.val) :
    gateM (iblk m c 0 t : Vec Ideal S512x2048 .bf16) (iblk m c 1 t : Vec Ideal S512x2048 .bf16) (iblk m c 4 t : Vec Ideal S2048x256 .bf16)
        (iblk m c 5 t : Vec Ideal S2048x256 .bf16) (iblk m c 11 t : Vec Ideal S1x256 .f32) r s
      = gateM (aH m c) (aX m c) (aWhi m c) (aWxi m c) (aBi m c) R S := by
  unfold gateM
  simp only [tile_hid m c t r R hR, tile_x m c t r R hR, tile_aWhi m c t s S hS, tile_aWxi m c t s S hS, tile_aBi m c t s S hS]

/-- Gate o of the tile at (r, s) is gate o of the arrays at (512·i + r, 256·j + s). -/
theorem gate_tile_o (c : Dev nD) (t : Fin cfg0.N) (r : Fin 512) (R : Fin 4096) (hR : R.val = win0_16.index t (0 : Fin 2) * 512 + r.val)
    (s : Fin 256) (S : Fin 2048) (hS : S.val = win0_16.index t (1 : Fin 2) * 256 + s.val) :
    gateM (iblk m c 0 t : Vec Ideal S512x2048 .bf16) (iblk m c 1 t : Vec Ideal S512x2048 .bf16) (iblk m c 6 t : Vec Ideal S2048x256 .bf16)
        (iblk m c 7 t : Vec Ideal S2048x256 .bf16) (iblk m c 12 t : Vec Ideal S1x256 .f32) r s
      = gateM (aH m c) (aX m c) (aWho m c) (aWxo m c) (aBo m c) R S := by
  unfold gateM
  simp only [tile_hid m c t r R hR, tile_x m c t r R hR, tile_aWho m c t s S hS, tile_aWxo m c t s S hS, tile_aBo m c t s S hS]

/-- Gate g of the tile at (r, s) is gate g of the arrays at (512·i + r, 256·j + s). -/
theorem gate_tile_g (c : Dev nD) (t : Fin cfg0.N) (r : Fin 512) (R : Fin 4096) (hR : R.val = win0_16.index t (0 : Fin 2) * 512 + r.val)
    (s : Fin 256) (S : Fin 2048) (hS : S.val = win0_16.index t (1 : Fin 2) * 256 + s.val) :
    gateM (iblk m c 0 t : Vec Ideal S512x2048 .bf16) (iblk m c 1 t : Vec Ideal S512x2048 .bf16) (iblk m c 8 t : Vec Ideal S2048x256 .bf16)
        (iblk m c 9 t : Vec Ideal S2048x256 .bf16) (iblk m c 13 t : Vec Ideal S1x256 .f32) r s
      = gateM (aH m c) (aX m c) (aWhg m c) (aWxg m c) (aBg m c) R S := by
  unfold gateM
  simp only [tile_hid m c t r R hR, tile_x m c t r R hR, tile_aWhg m c t s S hS, tile_aWxg m c t s S hS, tile_aBg m c t s S hS]

/-! ## What a point writes back is a tile of one function -/

/-- Where entry (r, s) of a result tile sits in the result array. -/
theorem emb16 (t : Fin cfg0.N) (r : Fin 512) (R : Fin 4096) (hR : R.val = win0_16.index t (0 : Fin 2) * 512 + r.val)
    (s : Fin 256) (S : Fin 2048) (hS : S.val = win0_16.index t (1 : Fin 2) * 256 + s.val) :
    ((cfg0.win 16).blk t).view.emb (ix2 r s) = (ix2 R S : S4096x2048.Idx) := by
  funext a; apply Fin.ext
  match a with
  | ⟨0, _⟩ => show win0_16.index t (0 : Fin 2) * 512 + 1 * r.val = R.val; omega
  | ⟨1, _⟩ => show win0_16.index t (1 : Fin 2) * 256 + 1 * s.val = S.val; omega

theorem emb15 (t : Fin cfg0.N) (r : Fin 512) (R : Fin 4096) (hR : R.val = win0_16.index t (0 : Fin 2) * 512 + r.val)
    (s : Fin 256) (S : Fin 2048) (hS : S.val = win0_16.index t (1 : Fin 2) * 256 + s.val) :
    ((cfg0.win 15).blk t).view.emb (ix2 r s) = (ix2 R S : S4096x2048.Idx) := by
  obtain ⟨-, -, -, -, -, -, e0, e1, -⟩ := idx_act t
  funext a; apply Fin.ext
  match a with
  | ⟨0, _⟩ => show win0_15.index t (0 : Fin 2) * 512 + 1 * r.val = R.val; omega
  | ⟨1, _⟩ => show win0_15.index t (1 : Fin 2) * 256 + 1 * s.val = S.val; omega

/-- What point t writes back to the new cell state is tile t of `cnewR`. -/
theorem flushed16_eq (c : Dev nD) (t : Fin cfg0.N) :
    (dats m 0 c).flushed 16 t = ((cfg0.win 16).blk t).view.read (Elt Ideal) (cnewR m c) := by
  rw [flushed16]
  unfold out0_16
  rw [View.canon_unit_zero zero_off]
  simp only [View.ld_unit_zero (S := S512x2048) zero_off, View.ld_unit_zero (S := S2048x256) zero_off,
    View.ld_unit_zero (S := S1x256) zero_off, View.ld_unit_zero (S := S512x256) zero_off]
  funext y
  obtain ⟨r, s, rfl⟩ : ∃ (r : Fin 512) (s : Fin 256), y = ix2 r s := ⟨y 0, y 1, eq_ix2 y⟩
  obtain ⟨-, -, -, -, -, -, -, -, b0, b1⟩ := idx_act t
  have hR : (⟨win0_16.index t (0 : Fin 2) * 512 + r.val, by have := r.isLt; omega⟩ : Fin 4096).val = win0_16.index t (0 : Fin 2) * 512 + r.val := rfl
  have hS : (⟨win0_16.index t (1 : Fin 2) * 256 + s.val, by have := s.isLt; omega⟩ : Fin 2048).val = win0_16.index t (1 : Fin 2) * 256 + s.val := rfl
  show k0_pay1 (k0_pay3 (iblk m c 0 t)) (k0_pay4 (iblk m c 1 t)) (k0_pay5 (iblk m c 0 t) (iblk m c 1 t) (iblk m c 2 t) (iblk m c 3 t) (iblk m c 10 t))
      (k0_pay6 (iblk m c 0 t) (iblk m c 1 t) (iblk m c 4 t) (iblk m c 5 t) (iblk m c 11 t)) (iblk m c 8 t) (iblk m c 9 t) (iblk m c 13 t) (iblk m c 14 t) (ix2 r s)
    = cnewR m c (((cfg0.win 16).blk t).view.emb (ix2 r s))
  refine (cell_entry (iblk m c 0 t) (iblk m c 1 t) (iblk m c 2 t) (iblk m c 3 t) (iblk m c 4 t) (iblk m c 5 t) (iblk m c 8 t) (iblk m c 9 t)
    (iblk m c 10 t) (iblk m c 11 t) (iblk m c 13 t) (iblk m c 14 t) r s).trans ?_
  rw [emb16 t r _ hR s _ hS, gate_tile_f m c t r _ hR s _ hS, gate_tile_i m c t r _ hR s _ hS, gate_tile_g m c t r _ hR s _ hS,
    tile_c m c t r _ hR s _ hS]
  rfl

/-- What point t writes back to the new hidden state is tile t of `hnewR`. -/
theorem flushed15_eq (c : Dev nD) (t : Fin cfg0.N) :
    (dats m 0 c).flushed 15 t = ((cfg0.win 15).blk t).view.read (Elt Ideal) (hnewR m c) := by
  rw [flushed15]
  unfold out0_15
  rw [View.canon_unit_zero zero_off]
  simp only [View.ld_unit_zero (S := S512x2048) zero_off, View.ld_unit_zero (S := S2048x256) zero_off,
    View.ld_unit_zero (S := S1x256) zero_off, View.ld_unit_zero (S := S512x256) zero_off]
  funext y
  obtain ⟨r, s, rfl⟩ : ∃ (r : Fin 512) (s : Fin 256), y = ix2 r s := ⟨y 0, y 1, eq_ix2 y⟩
  obtain ⟨-, -, -, -, -, -, -, -, b0, b1⟩ := idx_act t
  have hR : (⟨win0_16.index t (0 : Fin 2) * 512 + r.val, by have := r.isLt; omega⟩ : Fin 4096).val = win0_16.index t (0 : Fin 2) * 512 + r.val := rfl
  have hS : (⟨win0_16.index t (1 : Fin 2) * 256 + s.val, by have := s.isLt; omega⟩ : Fin 2048).val = win0_16.index t (1 : Fin 2) * 256 + s.val := rfl
  show k0_pay2 (k0_pay3 (iblk m c 0 t)) (k0_pay4 (iblk m c 1 t)) (k0_pay5 (iblk m c 0 t) (iblk m c 1 t) (iblk m c 2 t) (iblk m c 3 t) (iblk m c 10 t))
      (k0_pay6 (iblk m c 0 t) (iblk m c 1 t) (iblk m c 4 t) (iblk m c 5 t) (iblk m c 11 t)) (k0_pay7 (iblk m c 0 t) (iblk m c 6 t)) (k0_pay8 (iblk m c 1 t) (iblk m c 7 t))
      (iblk m c 12 t) (iblk m c 8 t) (iblk m c 9 t) (iblk m c 13 t) (iblk m c 14 t) (ix2 r s)
    = hnewR m c (((cfg0.win 15).blk t).view.emb (ix2 r s))
  refine (hid_entry (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) r s).trans ?_
  rw [emb15 t r _ hR s _ hS, gate_tile_f m c t r _ hR s _ hS, gate_tile_i m c t r _ hR s _ hS, gate_tile_g m c t r _ hR s _ hS,
    gate_tile_o m c t r _ hR s _ hS, tile_c m c t r _ hR s _ hS]
  rfl

/-! ## The tiles cover the results -/

theorem mem_blk16 (t : Fin cfg0.N) (i : S4096x2048.Idx) :
    i ∈ ((cfg0.win 16).blk t).view.set ↔ ∀ a : Fin 2, win0_16.index t a * S512x256.size a ≤ (i a).val ∧ (i a).val < win0_16.index t a * S512x256.size a + S512x256.size a := by
  show i ∈ ((View.whole main_v22_1).slice (win0_16.rect t)).set ↔ _
  rw [View.set_slice_whole, Rect.mem_set_unit]
  exact Iff.rfl

theorem mem_blk15 (t : Fin cfg0.N) (i : S4096x2048.Idx) :
    i ∈ ((cfg0.win 15).blk t).view.set ↔ ∀ a : Fin 2, win0_15.index t a * S512x256.size a ≤ (i a).val ∧ (i a).val < win0_15.index t a * S512x256.size a + S512x256.size a := by
  show i ∈ ((View.whole main_v22_0).slice (win0_15.rect t)).set ↔ _
  rw [View.set_slice_whole, Rect.mem_set_unit]
  exact Iff.rfl

/-- Entry (R, S) lies in the tile with block index (R / 512, S / 256). -/
theorem cover16 (i : S4096x2048.Idx) : ∃ t : Fin cfg0.N, (cfg0.win 16).flush t = true ∧ i ∈ ((cfg0.win 16).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_16.index t (0 : Fin 2) = (i 0).val / 512 := congrFun ht 0
  have q1 : win0_16.index t (1 : Fin 2) = (i 1).val / 256 := congrFun ht 1
  refine ⟨t, flush0_16 t, ?_⟩
  rw [mem_blk16]
  intro a
  match a with
  | ⟨0, _⟩ => show win0_16.index t (0 : Fin 2) * 512 ≤ (i 0).val ∧ (i 0).val < win0_16.index t (0 : Fin 2) * 512 + 512; omega
  | ⟨1, _⟩ => show win0_16.index t (1 : Fin 2) * 256 ≤ (i 1).val ∧ (i 1).val < win0_16.index t (1 : Fin 2) * 256 + 256; omega

theorem cover15 (i : S4096x2048.Idx) : ∃ t : Fin cfg0.N, (cfg0.win 15).flush t = true ∧ i ∈ ((cfg0.win 15).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  obtain ⟨-, -, -, -, -, -, e0, e1, -⟩ := idx_act t
  have q0 : win0_16.index t (0 : Fin 2) = (i 0).val / 512 := congrFun ht 0
  have q1 : win0_16.index t (1 : Fin 2) = (i 1).val / 256 := congrFun ht 1
  refine ⟨t, flush0_15 t, ?_⟩
  rw [mem_blk15]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 256 ≤ (i 1).val ∧ (i 1).val < win0_15.index t (1 : Fin 2) * 256 + 256; omega

/-- After the run the new cell state's array is `cnewR`. -/
theorem final16 (c : Dev nD) : (dats m 0 c).arrAt 16 cfg0.N = cnewR m c :=
  (dats m 0 c).arrAt_eq_of_cover 16 (cnewR m c) (fun t _ => flushed16_eq m c t) cover16

/-- After the run the new hidden state's array is `hnewR`. -/
theorem final15 (c : Dev nD) : (dats m 0 c).arrAt 15 cfg0.N = hnewR m c :=
  (dats m 0 c).arrAt_eq_of_cover 15 (hnewR m c) (fun t _ => flushed15_eq m c t) cover15

/-! ## In terms of the argument arrays -/

theorem cnewR_eq (c : Dev nD) : cnewR m c = cnewA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg9)) (m ((c : Thread nD τ).loc main_arg10)) := by
  funext i
  obtain ⟨p, q, rfl⟩ : ∃ (p : Fin 4096) (q : Fin 2048), i = ix2 p q := ⟨i 0, i 1, eq_ix2 i⟩
  have e1 := gateM_eq_gateA (aH m c) (aX m c) (aWhf m c) (aWxf m c) (aBf m c) _ _ _ _ (V_hid m c) (V_x m c) (V_whf m c) (V_wxf m c) (V_bf m c) p q
  have e2 := gateM_eq_gateA (aH m c) (aX m c) (aWhi m c) (aWxi m c) (aBi m c) _ _ _ _ (V_hid m c) (V_x m c) (V_whi m c) (V_wxi m c) (V_bi m c) p q
  have e3 := gateM_eq_gateA (aH m c) (aX m c) (aWhg m c) (aWxg m c) (aBg m c) _ _ _ _ (V_hid m c) (V_x m c) (V_whg m c) (V_wxg m c) (V_bg m c) p q
  unfold cnewR cnewA
  exact congr (congr (congr (congrArg cellNew e1) e2) e3) (congrFun (V_main_arg2 m c) _)

theorem hnewR_eq (c : Dev nD) : hnewR m c = hnewA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) := by
  funext i
  obtain ⟨p, q, rfl⟩ : ∃ (p : Fin 4096) (q : Fin 2048), i = ix2 p q := ⟨i 0, i 1, eq_ix2 i⟩
  have e4 := gateM_eq_gateA (aH m c) (aX m c) (aWho m c) (aWxo m c) (aBo m c) _ _ _ _ (V_hid m c) (V_x m c) (V_who m c) (V_wxo m c) (V_bo m c) p q
  unfold hnewR hnewA
  exact congr (congrArg hidNew e4) (congrFun (cnewR_eq m c) _)

/-! ## The run -/

/-- Every execution of the tiled program terminates with the two results at the cell's two functions of the
    argument arrays, the arguments unchanged. -/
theorem run : θ_run defs (onTc (τ := τ) (main (F := Ideal))) ⟨m, fun _ => 0, ρ⟩ fun r => ∀ c : Dev nD,
      r.2.mem ((c : Thread nD τ).loc main_v22_0) = hnewA (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
      ∧ r.2.mem ((c : Thread nD τ).loc main_v22_1) = cnewA (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((final15 m c).trans (hnewR_eq m c)),
      (h c).2.1.trans ((final16 m c).trans (cnewR_eq m c)), (h c).2.2⟩)
    (run_blocks m ρ)

end Cert.Lstm.Blocks

end
-- ==== Proof.LibConcatSum.lean ====
/-
  A sum over `N = A + B` positions falls into the sum over the first `A` and the sum over the last `B`:
  how a contraction against a concatenation of two rows becomes two contractions, each row against its
  half of the weight.
-/
import Mathlib.Algebra.BigOperators.Fin
import Idealize.ShloMosaic.Lib.Pipeline.Value
import Idealize.ShloMosaic.Lib.ValueIdx

namespace Cert.Proof.LibConcatSum

theorem sum_split {M : Type} [AddCommMonoid M] (A B N : ℕ) (hN : A + B = N) (f : Fin N → M) :
    ∑ k : Fin N, f k
      = ∑ k : Fin A, f ⟨k.val, by have := k.isLt; omega⟩ + ∑ k : Fin B, f ⟨A + k.val, by have := k.isLt; omega⟩ := by
  subst hN
  rw [Fin.sum_univ_add]
  rfl

open Idealize.ShloMosaic Idealize.ShloMosaic.ValueIdx

variable {α : Type} {P H₁ H₂ N : ℕ}

/-- Two blocks of columns laid side by side, read at a column of the first block. -/
theorem concat_cols_left (x₁ : (⟨2, ![P, H₁]⟩ : Shape).Idx → α) (x₂ : (⟨2, ![P, H₂]⟩ : Shape).Idx → α)
    (h : Shape.Concatenates [⟨2, ![P, H₁]⟩, ⟨2, ![P, H₂]⟩] ⟨2, ![P, N]⟩ 1) (p : Fin P) (k : Fin N) (hk : k.val < H₁) :
    concatenate ⟨2, ![P, N]⟩ 1 [⟨⟨2, ![P, H₁]⟩, x₁⟩, ⟨⟨2, ![P, H₂]⟩, x₂⟩] h (ix2 p k) = x₁ (ix2 p ⟨k.val, hk⟩) :=
  concatenate_pair_apply_left 1 x₁ x₂ h (ix2 p k) rfl (ix2 p ⟨k.val, hk⟩)
    (fun b => match b with | ⟨0, _⟩ => rfl | ⟨1, _⟩ => rfl)

/-- … and at a column of the second block. -/
theorem concat_cols_right (x₁ : (⟨2, ![P, H₁]⟩ : Shape).Idx → α) (x₂ : (⟨2, ![P, H₂]⟩ : Shape).Idx → α)
    (h : Shape.Concatenates [⟨2, ![P, H₁]⟩, ⟨2, ![P, H₂]⟩] ⟨2, ![P, N]⟩ 1) (p : Fin P) (k : Fin N) (hk : H₁ ≤ k.val)
    (hk2 : k.val - H₁ < H₂) :
    concatenate ⟨2, ![P, N]⟩ 1 [⟨⟨2, ![P, H₁]⟩, x₁⟩, ⟨⟨2, ![P, H₂]⟩, x₂⟩] h (ix2 p k) = x₂ (ix2 p ⟨k.val - H₁, hk2⟩) :=
  concatenate_pair_apply_right 1 x₁ x₂ h (ix2 p k) rfl rfl (ix2 p ⟨k.val - H₁, hk2⟩)
    (fun b hb => match b, hb with
      | ⟨0, _⟩, _ => rfl
      | ⟨1, _⟩, hb => absurd rfl hb)
    (by show (k.val - H₁) + H₁ = k.val; omega)

/-- Four single columns laid side by side: column `j` of the result is the `j`-th piece. -/
theorem concat_cols4_apply {H : ℕ} (u : Fin 4 → ((⟨2, ![H, 1]⟩ : Shape).Idx → α))
    (h : Shape.Concatenates [⟨2, ![H, 1]⟩, ⟨2, ![H, 1]⟩, ⟨2, ![H, 1]⟩, ⟨2, ![H, 1]⟩] ⟨2, ![H, 4]⟩ 1) (r : Fin H) (j : Fin 4) :
    concatenate ⟨2, ![H, 4]⟩ 1
        [⟨⟨2, ![H, 1]⟩, u 0⟩, ⟨⟨2, ![H, 1]⟩, u 1⟩, ⟨⟨2, ![H, 1]⟩, u 2⟩, ⟨⟨2, ![H, 1]⟩, u 3⟩] h (ix2 r j)
      = u j (ix2 r (0 : Fin 1)) := by
  have hi : ∀ b : Fin 2, b.cast rfl ≠ (1 : Fin 2) → ((ix2 r (0 : Fin 1) : (⟨2, ![H, 1]⟩ : Shape).Idx) b).val
      = ((ix2 r j : (⟨2, ![H, 4]⟩ : Shape).Idx) (b.cast rfl)).val := fun b hb =>
    match b, hb with
    | ⟨0, _⟩, _ => rfl
    | ⟨1, _⟩, hb => absurd rfl hb
  fin_cases j
  · exact concatenate_apply_piece (t := ⟨2, ![H, 4]⟩) 1 [⟨⟨2, ![H, 1]⟩, u 0⟩, ⟨⟨2, ![H, 1]⟩, u 1⟩, ⟨⟨2, ![H, 1]⟩, u 2⟩, ⟨⟨2, ![H, 1]⟩, u 3⟩] h _ 0 (by simp) ⟨2, ![H, 1]⟩ (u 0) rfl rfl 0 rfl _ hi rfl
  · exact concatenate_apply_piece (t := ⟨2, ![H, 4]⟩) 1 [⟨⟨2, ![H, 1]⟩, u 0⟩, ⟨⟨2, ![H, 1]⟩, u 1⟩, ⟨⟨2, ![H, 1]⟩, u 2⟩, ⟨⟨2, ![H, 1]⟩, u 3⟩] h _ 1 (by simp) ⟨2, ![H, 1]⟩ (u 1) rfl rfl 1 rfl _ hi rfl
  · exact concatenate_apply_piece (t := ⟨2, ![H, 4]⟩) 1 [⟨⟨2, ![H, 1]⟩, u 0⟩, ⟨⟨2, ![H, 1]⟩, u 1⟩, ⟨⟨2, ![H, 1]⟩, u 2⟩, ⟨⟨2, ![H, 1]⟩, u 3⟩] h _ 2 (by simp) ⟨2, ![H, 1]⟩ (u 2) rfl rfl 2 rfl _ hi rfl
  · exact concatenate_apply_piece (t := ⟨2, ![H, 4]⟩) 1 [⟨⟨2, ![H, 1]⟩, u 0⟩, ⟨⟨2, ![H, 1]⟩, u 1⟩, ⟨⟨2, ![H, 1]⟩, u 2⟩, ⟨⟨2, ![H, 1]⟩, u 3⟩] h _ 3 (by simp) ⟨2, ![H, 1]⟩ (u 3) rfl rfl 3 rfl _ hi rfl

end Cert.Proof.LibConcatSum
-- ==== Proof.LibRowBlocks.lean ====
/-
  Four arrays of one shape stacked along the leading axis, read at an entry: row `g · H + r` of the stack is
  row `r` of the `g`-th array.  For two-axis arrays [H, C] stacked to [N, C] and for vectors [H] laid end to
  end to [N]; any extents, any element type.
-/
import Idealize.ShloMosaic.Lib.Pipeline.Value
import Idealize.ShloMosaic.Lib.ValueIdx

namespace Cert.Proof.LibRowBlocks

open Idealize.ShloMosaic Idealize.ShloMosaic.ValueIdx

variable {α : Type} {H C N : ℕ}

/-- Four [H, C] arrays stacked along axis 0: the entry at row `g · H + r`, column `c`, is entry (r, c) of array `g`. -/
theorem stack4_rows_apply (u : Fin 4 → ((⟨2, ![H, C]⟩ : Shape).Idx → α))
    (h : Shape.Concatenates [⟨2, ![H, C]⟩, ⟨2, ![H, C]⟩, ⟨2, ![H, C]⟩, ⟨2, ![H, C]⟩] ⟨2, ![N, C]⟩ 0)
    (g : Fin 4) (r : Fin H) (c : Fin C) (j : (⟨2, ![N, C]⟩ : Shape).Idx)
    (hj0 : (j 0).val = g.val * H + r.val) (hj1 : (j 1).val = c.val) :
    concatenate ⟨2, ![N, C]⟩ 0
        [⟨⟨2, ![H, C]⟩, u 0⟩, ⟨⟨2, ![H, C]⟩, u 1⟩, ⟨⟨2, ![H, C]⟩, u 2⟩, ⟨⟨2, ![H, C]⟩, u 3⟩] h j
      = u g (ix2 r c) := by
  have hi : ∀ b : Fin 2, b.cast rfl ≠ (0 : Fin 2) → ((ix2 r c : (⟨2, ![H, C]⟩ : Shape).Idx) b).val
      = (j (b.cast rfl)).val := fun b hb =>
    match b, hb with
    | ⟨0, _⟩, hb => absurd rfl hb
    | ⟨1, _⟩, _ => hj1.symm
  fin_cases g
  · exact concatenate_apply_piece (t := ⟨2, ![N, C]⟩) 0 [⟨⟨2, ![H, C]⟩, u 0⟩, ⟨⟨2, ![H, C]⟩, u 1⟩, ⟨⟨2, ![H, C]⟩, u 2⟩, ⟨⟨2, ![H, C]⟩, u 3⟩] h j 0 (by simp) ⟨2, ![H, C]⟩ (u 0) rfl rfl 0 rfl _ hi (by simp at hj0; show 0 + r.val = (j 0).val; omega)
  · exact concatenate_apply_piece (t := ⟨2, ![N, C]⟩) 0 [⟨⟨2, ![H, C]⟩, u 0⟩, ⟨⟨2, ![H, C]⟩, u 1⟩, ⟨⟨2, ![H, C]⟩, u 2⟩, ⟨⟨2, ![H, C]⟩, u 3⟩] h j 1 (by simp) ⟨2, ![H, C]⟩ (u 1) rfl rfl H (by simp) _ hi (by simp at hj0; show H + r.val = (j 0).val; omega)
  · exact concatenate_apply_piece (t := ⟨2, ![N, C]⟩) 0 [⟨⟨2, ![H, C]⟩, u 0⟩, ⟨⟨2, ![H, C]⟩, u 1⟩, ⟨⟨2, ![H, C]⟩, u 2⟩, ⟨⟨2, ![H, C]⟩, u 3⟩] h j 2 (by simp) ⟨2, ![H, C]⟩ (u 2) rfl rfl (H + H) (by simp) _ hi (by simp at hj0; show H + H + r.val = (j 0).val; omega)
  · exact concatenate_apply_piece (t := ⟨2, ![N, C]⟩) 0 [⟨⟨2, ![H, C]⟩, u 0⟩, ⟨⟨2, ![H, C]⟩, u 1⟩, ⟨⟨2, ![H, C]⟩, u 2⟩, ⟨⟨2, ![H, C]⟩, u 3⟩] h j 3 (by simp) ⟨2, ![H, C]⟩ (u 3) rfl rfl (H + H + H) (by simp [add_assoc]) _ hi (by simp at hj0; show H + H + H + r.val = (j 0).val; omega)

/-- Four vectors [H] laid end to end: the entry at `g · H + r` is entry `r` of vector `g`. -/
theorem stack4_vec_apply (u : Fin 4 → ((⟨1, ![H]⟩ : Shape).Idx → α))
    (h : Shape.Concatenates [⟨1, ![H]⟩, ⟨1, ![H]⟩, ⟨1, ![H]⟩, ⟨1, ![H]⟩] ⟨1, ![N]⟩ 0)
    (g : Fin 4) (r : Fin H) (j : (⟨1, ![N]⟩ : Shape).Idx) (hj0 : (j 0).val = g.val * H + r.val) :
    concatenate ⟨1, ![N]⟩ 0 [⟨⟨1, ![H]⟩, u 0⟩, ⟨⟨1, ![H]⟩, u 1⟩, ⟨⟨1, ![H]⟩, u 2⟩, ⟨⟨1, ![H]⟩, u 3⟩] h j
      = u g (ix1 r) := by
  have hi : ∀ b : Fin 1, b.cast rfl ≠ (0 : Fin 1) → ((ix1 r : (⟨1, ![H]⟩ : Shape).Idx) b).val
      = (j (b.cast rfl)).val := fun b hb =>
    match b, hb with
    | ⟨0, _⟩, hb => absurd rfl hb
  fin_cases g
  · exact concatenate_apply_piece (t := ⟨1, ![N]⟩) 0 [⟨⟨1, ![H]⟩, u 0⟩, ⟨⟨1, ![H]⟩, u 1⟩, ⟨⟨1, ![H]⟩, u 2⟩, ⟨⟨1, ![H]⟩, u 3⟩] h j 0 (by simp) ⟨1, ![H]⟩ (u 0) rfl rfl 0 rfl _ hi (by simp at hj0; show 0 + r.val = (j 0).val; omega)
  · exact concatenate_apply_piece (t := ⟨1, ![N]⟩) 0 [⟨⟨1, ![H]⟩, u 0⟩, ⟨⟨1, ![H]⟩, u 1⟩, ⟨⟨1, ![H]⟩, u 2⟩, ⟨⟨1, ![H]⟩, u 3⟩] h j 1 (by simp) ⟨1, ![H]⟩ (u 1) rfl rfl H (by simp) _ hi (by simp at hj0; show H + r.val = (j 0).val; omega)
  · exact concatenate_apply_piece (t := ⟨1, ![N]⟩) 0 [⟨⟨1, ![H]⟩, u 0⟩, ⟨⟨1, ![H]⟩, u 1⟩, ⟨⟨1, ![H]⟩, u 2⟩, ⟨⟨1, ![H]⟩, u 3⟩] h j 2 (by simp) ⟨1, ![H]⟩ (u 2) rfl rfl (H + H) (by simp) _ hi (by simp at hj0; show H + H + r.val = (j 0).val; omega)
  · exact concatenate_apply_piece (t := ⟨1, ![N]⟩) 0 [⟨⟨1, ![H]⟩, u 0⟩, ⟨⟨1, ![H]⟩, u 1⟩, ⟨⟨1, ![H]⟩, u 2⟩, ⟨⟨1, ![H]⟩, u 3⟩] h j 3 (by simp) ⟨1, ![H]⟩ (u 3) rfl rfl (H + H + H) (by simp [add_assoc]) _ hi (by simp at hj0; show H + H + H + r.val = (j 0).val; omega)

end Cert.Proof.LibRowBlocks
-- ==== Proof.RefRead.lean ====
/-
  The reference computes the same two functions of the argument arrays.

  The reference lays the hidden state and the input side by side into one [4096, 4096] array, stacks the four
  weight matrices into one [8192, 4096] array and the four biases into one [8192] vector, takes ONE matrix product
  against the transposed stack and adds the bias; gate number g is columns g·2048 … g·2048 + 2047 of the result.
  At entry (p, g·2048 + q) the product's sum over 4096 positions falls into its first 2048 positions, which meet
  the hidden state and columns 0 … 2047 of row q of the g-th weight matrix, and its last 2048, which meet the
  input and columns 2048 … 4095: the gate's pre-activation.  The rest is the pointwise cell update, the
  logistic function being spelled as negate, exponential, add one, divide.
-/
import proofs.«108310_j36086315221096_2_alg».proof.Proof.Gen.ReferenceIdeal.Read
import proofs.«108310_j36086315221096_2_alg».proof.Proof.Spec
import proofs.«108310_j36086315221096_2_alg».proof.Proof.LibConcatSum
import proofs.«108310_j36086315221096_2_alg».proof.Proof.LibRowBlocks

noncomputable section

namespace Cert.Lstm.RefRead

open Cert.ReferenceIdeal Cert.ReferenceIdeal.Gen Cert.ReferenceIdeal.Read Idealize.ShloMosaic Idealize.ShloMosaic.ValueIdx
open Cert.Lstm Cert.Proof.LibConcatSum Cert.Proof.LibRowBlocks

variable (x0 x1 x2 : (⟨S4096x2048, .f32⟩ : BufTy).Contents (Elt Ideal)) (x3 x5 x7 x9 : (⟨S2048x4096, .f32⟩ : BufTy).Contents (Elt Ideal)) (x4 x6 x8 x10 : (⟨S2048, .f32⟩ : BufTy).Contents (Elt Ideal))

/-- The g-th weight matrix and bias vector of the stack. -/
abbrev wOf (g : Fin 4) : (⟨S2048x4096, .f32⟩ : BufTy).Contents (Elt Ideal) := ![x3, x5, x7, x9] g
abbrev bOf (g : Fin 4) : (⟨S2048, .f32⟩ : BufTy).Contents (Elt Ideal) := ![x4, x6, x8, x10] g

/-- Where the product reads its left operand: row p, position kk. -/
theorem lidx_eq (p : Fin 4096) (n : Fin 8192) (kk : Fin 4096) : lidx_main_v4 (ix2 p n) kk = ix2 p kk :=
  funext fun a => Fin.ext (by match a with | ⟨0, _⟩ => rfl | ⟨1, _⟩ => rfl)

/-- Where the product reads the stacked weights (before their transposition): row n, position kk. -/
theorem ridx_eq (p : Fin 4096) (n : Fin 8192) (kk : Fin 4096) : idx_main_v3 (ridx_main_v4 (ix2 p n) kk) = ix2 n kk :=
  funext fun a => Fin.ext (by match a with | ⟨0, _⟩ => rfl | ⟨1, _⟩ => rfl)

/-- Where the sum reads the stacked biases: position n. -/
theorem bidx_eq (p : Fin 4096) (n : Fin 8192) : idx_main_v5 (idx_main_v6 (ix2 p n)) = ix1 n :=
  funext fun a => Fin.ext (by match a with | ⟨0, _⟩ => rfl)

/-- The side-by-side array at a position of its first half is the hidden state. -/
theorem hid_half (p : Fin 4096) (kk : Fin 4096) (hk : kk.val < 2048) :
    val_main_v0 (F := Ideal) x0 x1 (ix2 p kk) = x1 (ix2 p ⟨kk.val, hk⟩) := by
  unfold val_main_v0
  exact concat_cols_left x1 x0 concatenates_S4096x2048_S4096x2048_S4096x4096_d1 p kk hk

/-- … and at a position of its second half the input. -/
theorem x_half (p : Fin 4096) (kk : Fin 4096) (hk : 2048 ≤ kk.val) :
    val_main_v0 (F := Ideal) x0 x1 (ix2 p kk) = x0 (ix2 p ⟨kk.val - 2048, by have := kk.isLt; omega⟩) := by
  unfold val_main_v0
  exact concat_cols_right x1 x0 concatenates_S4096x2048_S4096x2048_S4096x4096_d1 p kk hk (by have := kk.isLt; omega)

/-- Row g·2048 + q of the stacked weights is row q of the g-th weight matrix. -/
theorem w_entry (g : Fin 4) (q : Fin 2048) (n : Fin 8192) (hn : n.val = g.val * 2048 + q.val) (kk : Fin 4096) :
    val_main_v1 (F := Ideal) x3 x5 x7 x9 (ix2 n kk) = wOf x3 x5 x7 x9 g (ix2 q kk) := by
  unfold val_main_v1
  exact stack4_rows_apply ![x3, x5, x7, x9] concatenates_S2048x4096_S2048x4096_S2048x4096_S2048x4096_S8192x4096_d0 g q kk _ hn rfl

/-- Position g·2048 + q of the stacked biases is entry q of the g-th bias vector. -/
theorem b_entry (g : Fin 4) (q : Fin 2048) (n : Fin 8192) (hn : n.val = g.val * 2048 + q.val) :
    val_main_v2 (F := Ideal) x4 x6 x8 x10 (ix1 n) = bOf x4 x6 x8 x10 g (ix1 q) := by
  unfold val_main_v2
  exact stack4_vec_apply ![x4, x6, x8, x10] concatenates_S2048_S2048_S2048_S2048_S8192_d0 g q _ hn

/-- The fused product plus bias at (p, n), n = g·2048 + q, is gate g's pre-activation at (p, q). -/
theorem pre_entry (g : Fin 4) (p : Fin 4096) (q : Fin 2048) (n : Fin 8192) (hn : n.val = g.val * 2048 + q.val) :
    val_main_v7 (F := Ideal) x0 x1 x3 x4 x5 x6 x7 x8 x9 x10 (ix2 p n)
      = gateA x1 x0 (wOf x3 x5 x7 x9 g) (bOf x4 x6 x8 x10 g) p q := by
  rw [val_main_v7_apply, val_main_v4_apply, val_main_v6_apply, val_main_v5_apply]
  rw [sum_split 2048 2048 4096 rfl, bidx_eq, b_entry x4 x6 x8 x10 g q n hn]
  unfold gateA gate
  show (_ + _) + _ = (_ + _) + _
  congr 1
  congr 1
  · refine Finset.sum_congr rfl fun k _ => ?_
    rw [val_main_v3_apply, lidx_eq, ridx_eq, hid_half x0 x1 p _ k.isLt, w_entry x3 x5 x7 x9 g q n hn]
  · refine Finset.sum_congr rfl fun k _ => ?_
    rw [val_main_v3_apply, lidx_eq, ridx_eq, x_half x0 x1 p _ (by show 2048 ≤ 2048 + k.val; omega), w_entry x3 x5 x7 x9 g q n hn]
    exact congrArg (· * _) (congrArg x0 (funext fun a => Fin.ext (by
      match a with
      | ⟨0, _⟩ => rfl
      | ⟨1, _⟩ => show 2048 + k.val - 2048 = k.val; omega)))

theorem col0 (p : Fin 4096) (q : Fin 2048) : idx_main_v8 (ix2 p q) = ix2 p (⟨q.val, by have := q.isLt; omega⟩ : Fin 8192) :=
  funext fun a => Fin.ext (by match a with | ⟨0, _⟩ => rfl | ⟨1, _⟩ => rfl)
theorem col1 (p : Fin 4096) (q : Fin 2048) : idx_main_v15 (ix2 p q) = ix2 p (⟨2048 + q.val, by have := q.isLt; omega⟩ : Fin 8192) :=
  funext fun a => Fin.ext (by match a with | ⟨0, _⟩ => rfl | ⟨1, _⟩ => rfl)
theorem col2 (p : Fin 4096) (q : Fin 2048) : idx_main_v22 (ix2 p q) = ix2 p (⟨4096 + q.val, by have := q.isLt; omega⟩ : Fin 8192) :=
  funext fun a => Fin.ext (by match a with | ⟨0, _⟩ => rfl | ⟨1, _⟩ => rfl)
theorem col3 (p : Fin 4096) (q : Fin 2048) : idx_main_v29 (ix2 p q) = ix2 p (⟨6144 + q.val, by have := q.isLt; omega⟩ : Fin 8192) :=
  funext fun a => Fin.ext (by match a with | ⟨0, _⟩ => rfl | ⟨1, _⟩ => rfl)

/-- The reference's second result is the new cell state. -/
theorem ref_cnew : val_main_v33 (F := Ideal) x0 x1 x2 x3 x4 x5 x6 x7 x8 x9 x10 = cnewA x0 x1 x2 x3 x4 x5 x6 x9 x10 := by
  funext i
  obtain ⟨p, q, rfl⟩ : ∃ (p : Fin 4096) (q : Fin 2048), i = ix2 p q := ⟨i 0, i 1, eq_ix2 i⟩
  simp only [val_main_v33_apply, val_main_v31_apply, val_main_v14_apply, val_main_v13_apply, val_main_cst_0_apply,
    val_main_v12_apply, val_main_v11_apply, val_main_cst_apply, val_main_v10_apply, val_main_v9_apply, val_main_v8_apply,
    val_main_v32_apply, val_main_v21_apply, val_main_v20_apply, val_main_cst_2_apply, val_main_v19_apply, val_main_v18_apply,
    val_main_cst_1_apply, val_main_v17_apply, val_main_v16_apply, val_main_v15_apply, val_main_v30_apply, val_main_v29_apply]
  rw [col0, col1, col3,
    pre_entry x0 x1 x3 x5 x7 x9 x4 x6 x8 x10 0 p q _ (by show q.val = 0 * 2048 + q.val; omega),
    pre_entry x0 x1 x3 x5 x7 x9 x4 x6 x8 x10 1 p q _ (by show 2048 + q.val = 1 * 2048 + q.val; omega),
    pre_entry x0 x1 x3 x5 x7 x9 x4 x6 x8 x10 3 p q _ (by show 6144 + q.val = 3 * 2048 + q.val; omega),
    logistic_spelled, logistic_spelled]
  rfl

/-- The reference's first result is the new hidden state. -/
theorem ref_hnew : val_main_v35 (F := Ideal) x0 x1 x2 x3 x4 x5 x6 x7 x8 x9 x10 = hnewA x0 x1 x2 x3 x4 x5 x6 x7 x8 x9 x10 := by
  funext i
  obtain ⟨p, q, rfl⟩ : ∃ (p : Fin 4096) (q : Fin 2048), i = ix2 p q := ⟨i 0, i 1, eq_ix2 i⟩
  rw [val_main_v35_apply, val_main_v34_apply, ref_cnew]
  simp only [val_main_v28_apply, val_main_v27_apply, val_main_cst_4_apply, val_main_v26_apply, val_main_v25_apply,
    val_main_cst_3_apply, val_main_v24_apply, val_main_v23_apply, val_main_v22_apply]
  rw [col2, pre_entry x0 x1 x3 x5 x7 x9 x4 x6 x8 x10 2 p q _ (by show 4096 + q.val = 2 * 2048 + q.val; omega), logistic_spelled]
  rfl

end Cert.Lstm.RefRead

end
-- ==== Proof.lean ====
/-
  An LSTM cell step, tiled, against the same step written with one fused matrix product.

  Both programs compute, for every batch row p and hidden column q,
      c'[p, q] = σ(g_f) · c[p, q] + σ(g_i) · tanh(g_g),      h'[p, q] = σ(g_o) · tanh(c'[p, q]),
  where each gate's pre-activation is  g(p, q) = ∑ₖ hidden[p, k] · W[q, k] + ∑ₖ x[p, k] · W[q, 2048 + k] + b[q].
  The tiled program takes the two sums separately, tile by tile, on re-laid copies of the arguments (converted to
  the 16-bit format, which changes nothing on extended reals; transposed; cut in halves); the other takes ONE sum
  over the 4096 columns of the hidden state and the input laid side by side, against the four weight matrices
  stacked, and cuts the four gates out of the result.  A finite sum over 4096 positions is the sum over its first
  2048 plus the sum over its last 2048 in any commutative monoid, so the two agree entry by entry on all
  extended reals, with no appeal to finiteness of the inputs.  Nothing was rewritten when the tiled program was read
  on extended reals, so the statement relating its two readings is empty.
-/
import proofs.«108310_j36086315221096_2_alg».proof.Defs
import proofs.«108310_j36086315221096_2_alg».proof.Proof.Gen.Kernel
import proofs.«108310_j36086315221096_2_alg».proof.Proof.Gen.Kernel.Skeleton
import proofs.«108310_j36086315221096_2_alg».proof.Proof.Gen.Kernel.Launch
import proofs.«108310_j36086315221096_2_alg».proof.Proof.Gen.Kernel.Points
import proofs.«108310_j36086315221096_2_alg».proof.Proof.Gen.Kernel.Frame
import proofs.«108310_j36086315221096_2_alg».proof.Proof.Gen.KernelIdeal
import proofs.«108310_j36086315221096_2_alg».proof.Proof.Gen.KernelIdeal.Skeleton
import proofs.«108310_j36086315221096_2_alg».proof.Proof.Gen.KernelIdeal.Launch
import proofs.«108310_j36086315221096_2_alg».proof.Proof.Gen.KernelIdeal.Points
import proofs.«108310_j36086315221096_2_alg».proof.Proof.Gen.KernelIdeal.Frame
import proofs.«108310_j36086315221096_2_alg».proof.Proof.Gen.ReferenceIdeal
import proofs.«108310_j36086315221096_2_alg».proof.Proof.Gen.Pre_finite_inputs
import proofs.«108310_j36086315221096_2_alg».proof.Proof.Gen.KernelIdeal.Value
import proofs.«108310_j36086315221096_2_alg».proof.Proof.Gen.ReferenceIdeal.Run
import proofs.«108310_j36086315221096_2_alg».proof.Proof.Gen.ReferenceIdeal.Read
import proofs.«108310_j36086315221096_2_alg».proof.Proof.Blocks
import proofs.«108310_j36086315221096_2_alg».proof.Proof.RefRead
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame is its run with the results forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2.2) (Cert.ReferenceIdeal.Value.run (F := Ideal) m ρ)

/-- Both programs end with the new hidden state and the new cell state at the cell's two functions of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Lstm.hnewA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Lstm.cnewA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.Lstm.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v35_eq, Cert.Lstm.RefRead.ref_hnew, a0, a1, a2, a3, a4, a5, a6, a7, a8, a9, a10]
  · obtain ⟨a0, a1, a2, a3, a4, a5, a6, a7, a8, a9, a10⟩ := hagree c
    rw [Cert.ReferenceIdeal.Read.val_main_v33_eq, Cert.Lstm.RefRead.ref_cnew, a0, a1, a2, a3, a4, a5, a6, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
